-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x300 : Shape := ⟨3, ![16, 1024, 300]⟩
abbrev S64x300 : Shape := ⟨2, ![64, 300]⟩
abbrev S64 : Shape := ⟨1, ![64]⟩
abbrev S256x64x64 : Shape := ⟨3, ![256, 64, 64]⟩
abbrev S_ : Shape := ⟨0, ![]⟩

class Facts : Prop where
  bcast_S_S16x1024x300 : S_.BroadcastsInDim S16x1024x300 (![] : Fin 0 → Fin S16x1024x300.rank)
  reducesTo_S16x1024x300_S_d0_1_2 : S16x1024x300.ReducesTo [0, 1, 2] S_
  h_S_ : 0 < S_.numel
  bcast_S_S64x300 : S_.BroadcastsInDim S64x300 (![] : Fin 0 → Fin S64x300.rank)
  reducesTo_S64x300_S_d0_1 : S64x300.ReducesTo [0, 1] S_
  bcast_S_S64 : S_.BroadcastsInDim S64 (![] : Fin 0 → Fin S64.rank)
  reducesTo_S64_S_d0 : S64.ReducesTo [0] S_
  bcast_S_S256x64x64 : S_.BroadcastsInDim S256x64x64 (![] : Fin 0 → Fin S256x64x64.rank)
  reducesTo_S256x64x64_S_d0_1_2 : S256x64x64.ReducesTo [0, 1, 2] S_

variable [Facts]

def fn_part1 {F : FTy → Type} [FloatOps F] (main_v13 : IVec S_ 1) (main_v16 : IVec S256x64x64 1) : IVec S_ 1 :=
  let main_c_5 : IVec S_ 1 := constantI S_ 1 1#1
  let main_v17 : IVec S_ 1 := (fun x v => Host.reduce IntOp.andi x v reducesTo_S256x64x64_S_d0_1_2 h_S_) main_v16 main_c_5
  let main_v18 : IVec S_ 1 := andi main_v13 main_v17
  main_v18

def fn {F : FTy → Type} [FloatOps F] (main_arg0 : FVec F S16x1024x300 .f32) (main_arg1 : FVec F S64x300 .f32) (main_arg2 : FVec F S64 .f32) (main_arg3 : FVec F S256x64x64 .f32) : IVec S_ 1 :=
  let main_v0 : FVec F S16x1024x300 .f32 := Host.absf main_arg0
  let main_cst : FVec F S_ .f32 := constant S_ .f32 0x7F800000#32
  let main_v1 : FVec F S16x1024x300 .f32 := broadcastInDim S16x1024x300 ![] bcast_S_S16x1024x300 main_cst
  let main_v2 : IVec S16x1024x300 1 := cmpf .olt main_v0 main_v1
  let main_c : IVec S_ 1 := constantI S_ 1 1#1
  let main_v3 : IVec S_ 1 := (fun x v => Host.reduce IntOp.andi x v reducesTo_S16x1024x300_S_d0_1_2 h_S_) main_v2 main_c
  let main_v4 : FVec F S64x300 .f32 := Host.absf main_arg1
  let main_cst_0 : FVec F S_ .f32 := constant S_ .f32 0x7F800000#32
  let main_v5 : FVec F S64x300 .f32 := broadcastInDim S64x300 ![] bcast_S_S64x300 main_cst_0
  let main_v6 : IVec S64x300 1 := cmpf .olt main_v4 main_v5
  let main_c_1 : IVec S_ 1 := constantI S_ 1 1#1
  let main_v7 : IVec S_ 1 := (fun x v => Host.reduce IntOp.andi x v reducesTo_S64x300_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S256x64x64 .f32 := Host.absf main_arg3
  let main_cst_4 : FVec F S_ .f32 := constant S_ .f32 0x7F800000#32
  let main_v15 : FVec F S256x64x64 .f32 := broadcastInDim S256x64x64 ![] bcast_S_S256x64x64 main_cst_4
  let main_v16 : IVec S256x64x64 1 := cmpf .olt main_v14 main_v15
  fn_part1 (F := F) main_v13 main_v16
-- ==== Kernel.lean ====
abbrev S16x1024x300 : Shape := ⟨3, ![16, 1024, 300]⟩
abbrev S64x300 : Shape := ⟨2, ![64, 300]⟩
abbrev S64 : Shape := ⟨1, ![64]⟩
abbrev S256x64x64 : Shape := ⟨3, ![256, 64, 64]⟩
abbrev S1x64 : Shape := ⟨2, ![1, 64]⟩
abbrev S16384x300 : Shape := ⟨2, ![16384, 300]⟩
abbrev S16384x64 : Shape := ⟨2, ![16384, 64]⟩
abbrev S4096x300 : Shape := ⟨2, ![4096, 300]⟩
abbrev S4096x64 : Shape := ⟨2, ![4096, 64]⟩
abbrev S16x1024x64 : Shape := ⟨3, ![16, 1024, 64]⟩
abbrev S64x256x64 : Shape := ⟨3, ![64, 256, 64]⟩
abbrev S16x256 : Shape := ⟨2, ![16, 256]⟩
abbrev S8x128x64 : Shape := ⟨3, ![8, 128, 64]⟩
abbrev S8x256 : Shape := ⟨2, ![8, 256]⟩
abbrev S1x128x64 : Shape := ⟨3, ![1, 128, 64]⟩
abbrev S128x64 : Shape := ⟨2, ![128, 64]⟩
abbrev S128x16384 : Shape := ⟨2, ![128, 16384]⟩
abbrev S128x256 : Shape := ⟨2, ![128, 256]⟩
abbrev S256 : Shape := ⟨1, ![256]⟩
abbrev S1x256 : Shape := ⟨2, ![1, 256]⟩

abbrev nBuf : Space → Nat
  | .hbm => 10
  | .vmem => 12
  | .smem => 0
  | _ => 0

abbrev bufTy : (tb : Table) → Fin (tcTables nBuf tb) → BufTy
  | .hbm, ⟨0, _⟩ => ⟨S16x1024x300, .f32⟩
  | .hbm, ⟨1, _⟩ => ⟨S64x300, .f32⟩
  | .hbm, ⟨2, _⟩ => ⟨S64, .f32⟩
  | .hbm, ⟨3, _⟩ => ⟨S256x64x64, .f32⟩
  | .hbm, ⟨4, _⟩ => ⟨S1x64, .f32⟩
  | .hbm, ⟨5, _⟩ => ⟨S16384x300, .f32⟩
  | .hbm, ⟨6, _⟩ => ⟨S16384x64, .f32⟩
  | .hbm, ⟨7, _⟩ => ⟨S16x1024x64, .f32⟩
  | .hbm, ⟨8, _⟩ => ⟨S64x256x64, .f32⟩
  | .hbm, ⟨9, _⟩ => ⟨S16x256, .f32⟩
  | .local _ .vmem, ⟨0, _⟩ => ⟨S4096x300, .f32⟩
  | .local _ .vmem, ⟨1, _⟩ => ⟨S4096x300, .f32⟩
  | .local _ .vmem, ⟨2, _⟩ => ⟨S64x300, .f32⟩
  | .local _ .vmem, ⟨3, _⟩ => ⟨S1x64, .f32⟩
  | .local _ .vmem, ⟨4, _⟩ => ⟨S4096x64, .f32⟩
  | .local _ .vmem, ⟨5, _⟩ => ⟨S4096x64, .f32⟩
  | .local _ .vmem, ⟨6, _⟩ => ⟨S8x128x64, .f32⟩
  | .local _ .vmem, ⟨7, _⟩ => ⟨S8x128x64, .f32⟩
  | .local _ .vmem, ⟨8, _⟩ => ⟨S64x256x64, .f32⟩
  | .local _ .vmem, ⟨9, _⟩ => ⟨S8x256, .f32⟩
  | .local _ .vmem, ⟨10, _⟩ => ⟨S8x256, .f32⟩
  | .local _ .vmem, ⟨11, _⟩ => ⟨S8x256, .f32⟩
  | _, _ => ⟨S16x1024x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x300 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 8], ![false, false]⟩

@[reducible] def k1_t1_loop : Scf.Loop 32 :=
  let c0_i32_3 : BitVec 32 := 0#32
  let c8_i32 : BitVec 32 := 8#32
  let v7 : BitVec 32 := Scalar.addi c0_i32_3 c8_i32
  let c1_i32 : BitVec 32 := 1#32
  ⟨c0_i32_3, v7, c1_i32⟩
def k1_off1 (k1_t1 : Fin k1_t1_loop.trips) : Fin 3 → Nat :=
  let c0_i32_3 : BitVec 32 := 0#32
  let c1_i32 : BitVec 32 := 1#32
  let arg6 : BitVec 32 := Scf.iv c0_i32_3 c1_i32 k1_t1
  let v11 : Index := Scalar.indexCast arg6
  let c0_6 : Index := 0#32
  let c0_7 : Index := 0#32
  ![v11.toNat, 0, 0]
def k1_off2 (k1_t1 : Fin k1_t1_loop.trips) : Fin 2 → Nat :=
  let c0_i32_3 : BitVec 32 := 0#32
  let c1_i32 : BitVec 32 := 1#32
  let arg6 : BitVec 32 := Scf.iv c0_i32_3 c1_i32 k1_t1
  let v146 : Index := Scalar.indexCast arg6
  let c0_10 : Index := 0#32
  ![v146.toNat, 0]
def k1_cond2 (i : grid1.Coords) : BitVec 1 :=
  let arg1 : BitVec 32 := BitVec.ofNat 32 (i 1).val
  let c7_i32 : BitVec 32 := 7#32
  let v8 : BitVec 1 := Scalar.cmpi .eq arg1 c7_i32
  let v9 : BitVec 32 := Scalar.extui v8
  let c0_i32_5 : BitVec 32 := 0#32
  let v10 : BitVec 1 := Scalar.cmpi .ne v9 c0_i32_5
  v10

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S8x128x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S64x256x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S8x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  shapeCasts_S64_S1x64 : S64.ShapeCasts S1x64
  shapeCasts_S16x1024x300_S16384x300 : S16x1024x300.ShapeCasts S16384x300
  inb_S4096x300_S4096x300_0_0 : ∀ a, (![0, 0] : Fin 2 → Nat) a + S4096x300.size a ≤ S4096x300.size a
  h_S4096x300 : 0 < S4096x300.numel
  shapeCasts_S4096x300_S4096x300 : S4096x300.ShapeCasts S4096x300
  bitsLt_bf16_f32 : FTy.bits .bf16 < FTy.bits .f32
  inb_S64x300_S64x300_0_0 : ∀ a, (![0, 0] : Fin 2 → Nat) a + S64x300.size a ≤ S64x300.size a
  h_S64x300 : 0 < S64x300.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  inb_S4096x64_S4096x64_0_0 : ∀ a, (![0, 0] : Fin 2 → Nat) a + S4096x64.size a ≤ S4096x64.size a
  h_S4096x64 : 0 < S4096x64.numel
  shapeCasts_S16384x64_S16x1024x64 : S16384x64.ShapeCasts S16x1024x64
  transposes_S256x64x64_S64x256x64_1_0_2 : S256x64x64.Transposes [1, 0, 2] S64x256x64
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S64x256x64_S64x256x64_0_0_0 : ∀ a, (![0, 0, 0] : Fin 3 → Nat) a + S64x256x64.size a ≤ S64x256x64.size a
  h_S64x256x64 : 0 < S64x256x64.numel
  shapeCasts_S64x256x64_S64x256x64 : S64x256x64.ShapeCasts S64x256x64
  shapeCasts_S64x256x64_S16384x64 : S64x256x64.ShapeCasts S16384x64
  h_S1x128x64 : 0 < S1x128x64.numel
  shapeCasts_S1x128x64_S128x64 : S1x128x64.ShapeCasts S128x64
  slices_S128x16384_o0_0_S128x256 : S128x16384.Slices ![0, 0] S128x256
  slices_S128x16384_o0_256_S128x256 : S128x16384.Slices ![0, 256] S128x256
  slices_S128x16384_o0_512_S128x256 : S128x16384.Slices ![0, 512] S128x256
  slices_S128x16384_o0_768_S128x256 : S128x16384.Slices ![0, 768] S128x256
  slices_S128x16384_o0_1024_S128x256 : S128x16384.Slices ![0, 1024] S128x256
  slices_S128x16384_o0_1280_S128x256 : S128x16384.Slices ![0, 1280] S128x256
  slices_S128x16384_o0_1536_S128x256 : S128x16384.Slices ![0, 1536] S128x256
  slices_S128x16384_o0_1792_S128x256 : S128x16384.Slices ![0, 1792] S128x256
  slices_S128x16384_o0_2048_S128x256 : S128x16384.Slices ![0, 2048] S128x256
  slices_S128x16384_o0_2304_S128x256 : S128x16384.Slices ![0, 2304] S128x256
  slices_S128x16384_o0_2560_S128x256 : S128x16384.Slices ![0, 2560] S128x256
  slices_S128x16384_o0_2816_S128x256 : S128x16384.Slices ![0, 2816] S128x256
  slices_S128x16384_o0_3072_S128x256 : S128x16384.Slices ![0, 3072] S128x256
  slices_S128x16384_o0_3328_S128x256 : S128x16384.Slices ![0, 3328] S128x256
  slices_S128x16384_o0_3584_S128x256 : S128x16384.Slices ![0, 3584] S128x256
  slices_S128x16384_o0_3840_S128x256 : S128x16384.Slices ![0, 3840] S128x256
  slices_S128x16384_o0_4096_S128x256 : S128x16384.Slices ![0, 4096] S128x256
  slices_S128x16384_o0_4352_S128x256 : S128x16384.Slices ![0, 4352] S128x256
  slices_S128x16384_o0_4608_S128x256 : S128x16384.Slices ![0, 4608] S128x256
  slices_S128x16384_o0_4864_S128x256 : S128x16384.Slices ![0, 4864] S128x256
  slices_S128x16384_o0_5120_S128x256 : S128x16384.Slices ![0, 5120] S128x256
  slices_S128x16384_o0_5376_S128x256 : S128x16384.Slices ![0, 5376] S128x256
  slices_S128x16384_o0_5632_S128x256 : S128x16384.Slices ![0, 5632] S128x256
  slices_S128x16384_o0_5888_S128x256 : S128x16384.Slices ![0, 5888] S128x256
  slices_S128x16384_o0_6144_S128x256 : S128x16384.Slices ![0, 6144] S128x256
  slices_S128x16384_o0_6400_S128x256 : S128x16384.Slices ![0, 6400] S128x256
  slices_S128x16384_o0_6656_S128x256 : S128x16384.Slices ![0, 6656] S128x256
  slices_S128x16384_o0_6912_S128x256 : S128x16384.Slices ![0, 6912] S128x256
  slices_S128x16384_o0_7168_S128x256 : S128x16384.Slices ![0, 7168] S128x256
  slices_S128x16384_o0_7424_S128x256 : S128x16384.Slices ![0, 7424] S128x256
  slices_S128x16384_o0_7680_S128x256 : S128x16384.Slices ![0, 7680] S128x256
  slices_S128x16384_o0_7936_S128x256 : S128x16384.Slices ![0, 7936] S128x256
  slices_S128x16384_o0_8192_S128x256 : S128x16384.Slices ![0, 8192] S128x256
  slices_S128x16384_o0_8448_S128x256 : S128x16384.Slices ![0, 8448] S128x256
  slices_S128x16384_o0_8704_S128x256 : S128x16384.Slices ![0, 8704] S128x256
  slices_S128x16384_o0_8960_S128x256 : S128x16384.Slices ![0, 8960] S128x256
  slices_S128x16384_o0_9216_S128x256 : S128x16384.Slices ![0, 9216] S128x256
  slices_S128x16384_o0_9472_S128x256 : S128x16384.Slices ![0, 9472] S128x256
  slices_S128x16384_o0_9728_S128x256 : S128x16384.Slices ![0, 9728] S128x256
  slices_S128x16384_o0_9984_S128x256 : S128x16384.Slices ![0, 9984] S128x256
  slices_S128x16384_o0_10240_S128x256 : S128x16384.Slices ![0, 10240] S128x256
  slices_S128x16384_o0_10496_S128x256 : S128x16384.Slices ![0, 10496] S128x256
  slices_S128x16384_o0_10752_S128x256 : S128x16384.Slices ![0, 10752] S128x256
  slices_S128x16384_o0_11008_S128x256 : S128x16384.Slices ![0, 11008] S128x256
  slices_S128x16384_o0_11264_S128x256 : S128x16384.Slices ![0, 11264] S128x256
  slices_S128x16384_o0_11520_S128x256 : S128x16384.Slices ![0, 11520] S128x256
  slices_S128x16384_o0_11776_S128x256 : S128x16384.Slices ![0, 11776] S128x256
  slices_S128x16384_o0_12032_S128x256 : S128x16384.Slices ![0, 12032] S128x256
  slices_S128x16384_o0_12288_S128x256 : S128x16384.Slices ![0, 12288] S128x256
  slices_S128x16384_o0_12544_S128x256 : S128x16384.Slices ![0, 12544] S128x256
  slices_S128x16384_o0_12800_S128x256 : S128x16384.Slices ![0, 12800] S128x256
  slices_S128x16384_o0_13056_S128x256 : S128x16384.Slices ![0, 13056] S128x256
  slices_S128x16384_o0_13312_S128x256 : S128x16384.Slices ![0, 13312] S128x256
  slices_S128x16384_o0_13568_S128x256 : S128x16384.Slices ![0, 13568] S128x256
  slices_S128x16384_o0_13824_S128x256 : S128x16384.Slices ![0, 13824] S128x256
  slices_S128x16384_o0_14080_S128x256 : S128x16384.Slices ![0, 14080] S128x256
  slices_S128x16384_o0_14336_S128x256 : S128x16384.Slices ![0, 14336] S128x256
  slices_S128x16384_o0_14592_S128x256 : S128x16384.Slices ![0, 14592] S128x256
  slices_S128x16384_o0_14848_S128x256 : S128x16384.Slices ![0, 14848] S128x256
  slices_S128x16384_o0_15104_S128x256 : S128x16384.Slices ![0, 15104] S128x256
  slices_S128x16384_o0_15360_S128x256 : S128x16384.Slices ![0, 15360] S128x256
  slices_S128x16384_o0_15616_S128x256 : S128x16384.Slices ![0, 15616] S128x256
  slices_S128x16384_o0_15872_S128x256 : S128x16384.Slices ![0, 15872] S128x256
  slices_S128x16384_o0_16128_S128x256 : S128x16384.Slices ![0, 16128] S128x256
  reduces_S128x256_S256 : S128x256.Reduces [0] S256
  h_S1x256 : 0 < S1x256.numel
  shapeCasts_S1x256_S256 : S1x256.ShapeCasts S256
  shapeCasts_S256_S1x256 : S256.ShapeCasts S1x256
  dot_S4096x300_S64x300_S4096x64_1_1_0_0_n_n_wf : DotDims.WF S4096x300 S64x300 S4096x64 [1] [1] [0] [0] [] []
  dot_S128x64_S16384x64_S128x16384_1_1_0_0_n_n_wf : DotDims.WF S128x64 S16384x64 S128x16384 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x300.size a ≤ S16384x300.size a
  hwx0_0 : ∀ i : grid0.Coords, EltTy.bits .f32 = 32 ∨ (Rect.block (s := S16384x300) S4096x300.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x300.size a ≤ S64x300.size a
  hwx0_1 : ∀ i : grid0.Coords, EltTy.bits .f32 = 32 ∨ (Rect.block (s := S64x300) S64x300.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x64.size a ≤ S16384x64.size a
  hwx0_3 : ∀ i : grid0.Coords, EltTy.bits .f32 = 32 ∨ (Rect.block (s := S16384x64) S4096x64.size (cc0_transform_3 i) (hinb0_3 i)).WholeWords (EltTy.packing .f32)
  hrank1 : 0 < grid1.rank
  k1_t1_ok : k1_t1_loop.OK
  k1_off1_inb : ∀ k1_t1 : Fin k1_t1_loop.trips, ∀ a, (k1_off1 k1_t1) a + S1x128x64.size a ≤ S8x128x64.size a
  k1_off2_inb : ∀ k1_t1 : Fin k1_t1_loop.trips, ∀ a, (k1_off2 k1_t1) a + S1x256.size a ≤ S8x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x128x64.size a ≤ S16x1024x64.size a
  hwx1_0 : ∀ i : grid1.Coords, EltTy.bits .f32 = 32 ∨ (Rect.block (s := S16x1024x64) S8x128x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x256x64.size a ≤ S64x256x64.size a
  hwx1_1 : ∀ i : grid1.Coords, EltTy.bits .f32 = 32 ∨ (Rect.block (s := S64x256x64) S64x256x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x256.size a ≤ S16x256.size a
  hwx1_2 : ∀ i : grid1.Coords, EltTy.bits .f32 = 32 ∨ (Rect.block (s := S16x256) S8x256.size (cc1_transform_2 i) (hinb1_2 i)).WholeWords (EltTy.packing .f32)

variable [Facts₀]

def dot_S4096x300_S64x300_S4096x64_1_1_0_0_n_n : DotDims S4096x300 S64x300 S4096x64 where
  lhsContracting := [1]
  rhsContracting := [1]
  lhsNonContracting := [0]
  rhsNonContracting := [0]
  lhsBatch := []
  rhsBatch := []
  wf := dot_S4096x300_S64x300_S4096x64_1_1_0_0_n_n_wf
def dot_S128x64_S16384x64_S128x16384_1_1_0_0_n_n : DotDims S128x64 S16384x64 S128x16384 where
  lhsContracting := [1]
  rhsContracting := [1]
  lhsNonContracting := [0]
  rhsNonContracting := [0]
  lhsBatch := []
  rhsBatch := []
  wf := dot_S128x64_S16384x64_S128x16384_1_1_0_0_n_n_wf

abbrev win0_0 : Pipeline.Window sig grid0 :=
  Pipeline.Window.ofSpec (Memref.whole main_v1) S4096x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x300.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4096x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v3) S8x128x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S64x256x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S8x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S16x1024x300 : Shape := ⟨3, ![16, 1024, 300]⟩
abbrev S64x300 : Shape := ⟨2, ![64, 300]⟩
abbrev S64 : Shape := ⟨1, ![64]⟩
abbrev S256x64x64 : Shape := ⟨3, ![256, 64, 64]⟩
abbrev S16x1024x64 : Shape := ⟨3, ![16, 1024, 64]⟩
abbrev S1x1x64 : Shape := ⟨3, ![1, 1, 64]⟩
abbrev S16x1024x256x64 : Shape := ⟨4, ![16, 1024, 256, 64]⟩
abbrev S_ : Shape := ⟨0, ![]⟩
abbrev S16x1024x256 : Shape := ⟨3, ![16, 1024, 256]⟩
abbrev S16x256 : Shape := ⟨2, ![16, 256]⟩

abbrev nBuf : Space → Nat
  | .hbm => 16
  | .vmem => 0
  | .smem => 0
  | _ => 0

abbrev bufTy : (tb : Table) → Fin (tcTables nBuf tb) → BufTy
  | .hbm, ⟨0, _⟩ => ⟨S16x1024x300, .f32⟩
  | .hbm, ⟨1, _⟩ => ⟨S64x300, .f32⟩
  | .hbm, ⟨2, _⟩ => ⟨S64, .f32⟩
  | .hbm, ⟨3, _⟩ => ⟨S256x64x64, .f32⟩
  | .hbm, ⟨4, _⟩ => ⟨S16x1024x64, .f32⟩
  | .hbm, ⟨5, _⟩ => ⟨S1x1x64, .f32⟩
  | .hbm, ⟨6, _⟩ => ⟨S16x1024x64, .f32⟩
  | .hbm, ⟨7, _⟩ => ⟨S16x1024x64, .f32⟩
  | .hbm, ⟨8, _⟩ => ⟨S16x1024x256x64, .f32⟩
  | .hbm, ⟨9, _⟩ => ⟨S_, .f32⟩
  | .hbm, ⟨10, _⟩ => ⟨S16x1024x256x64, .f32⟩
  | .hbm, ⟨11, _⟩ => ⟨S16x1024x256x64, .f32⟩
  | .hbm, ⟨12, _⟩ => ⟨S_, .f32⟩
  | .hbm, ⟨13, _⟩ => ⟨S16x1024x256, .f32⟩
  | .hbm, ⟨14, _⟩ => ⟨S_, .f32⟩
  | .hbm, ⟨15, _⟩ => ⟨S16x256, .f32⟩
  | _, _ => ⟨S16x1024x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S16x1024x64_0_1_2 : S1x1x64.BroadcastsInDim S16x1024x64 (![0, 1, 2] : Fin 3 → Fin S16x1024x64.rank)
  bcast_S_S16x1024x256x64 : S_.BroadcastsInDim S16x1024x256x64 (![] : Fin 0 → Fin S16x1024x256x64.rank)
  reducesTo_S16x1024x256x64_S16x1024x256_d3 : S16x1024x256x64.ReducesTo [3] S16x1024x256
  h_S_ : 0 < S_.numel
  reducesTo_S16x1024x256_S16x256_d1 : S16x1024x256.ReducesTo [1] S16x256
  dot_S16x1024x300_S64x300_S16x1024x64_2_1_01_0_n_n_wf : DotDims.WF S16x1024x300 S64x300 S16x1024x64 [2] [1] [0, 1] [0] [] []
  dot_S16x1024x64_S256x64x64_S16x1024x256x64_2_2_01_01_n_n_wf : DotDims.WF S16x1024x64 S256x64x64 S16x1024x256x64 [2] [2] [0, 1] [0, 1] [] []

variable [Facts₀]

def dot_S16x1024x300_S64x300_S16x1024x64_2_1_01_0_n_n : DotDims S16x1024x300 S64x300 S16x1024x64 where
  lhsContracting := [2]
  rhsContracting := [1]
  lhsNonContracting := [0, 1]
  rhsNonContracting := [0]
  lhsBatch := []
  rhsBatch := []
  wf := dot_S16x1024x300_S64x300_S16x1024x64_2_1_01_0_n_n_wf
def dot_S16x1024x64_S256x64x64_S16x1024x256x64_2_2_01_01_n_n : DotDims S16x1024x64 S256x64x64 S16x1024x256x64 where
  lhsContracting := [2]
  rhsContracting := [2]
  lhsNonContracting := [0, 1]
  rhsNonContracting := [0, 1]
  lhsBatch := []
  rhsBatch := []
  wf := dot_S16x1024x64_S256x64x64_S16x1024x256x64_2_2_01_01_n_n_wf

class Facts : Prop extends Facts₀ where

variable [Facts]
-- ==== Proof.KbR0.lean ====
/-
  The first kernel launch: one block of 4096 rows of the flattened input (16384 × 300) against the whole weight
  matrix (64 × 300) and the bias row (1 × 64), stored as 4096 rows of the compressed array (16384 × 64). The body
  is straight-line: three whole-block loads, one matrix product into a zero accumulator plus the broadcast bias,
  one whole-block store. Everything here is stated at a parameter `V`, the buffer contents when the call is entered.
-/
import proofs.«111605_j15960098472410_2_alg».proof.Proof.Gen.Kernel.Launch
import proofs.«111605_j15960098472410_2_alg».proof.Proof.Gen.Kernel.Skeleton
import proofs.«111605_j15960098472410_2_alg».proof.Proof.Gen.Kernel.Points
import proofs.«111605_j15960098472410_2_alg».proof.Proof.Gen.Kernel.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The blocks the grid point reads -/

/-- Window `w`'s block at grid point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of the input: its staging buffer holds the block of the point, whether or not it was fetched there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix: one block, the same at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias row: one block, the same at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: four whole blocks -/

abbrev rX : Rect S4096x300 := Rect.unit (s := S4096x300) ![0, 0] S4096x300.size inb_S4096x300_S4096x300_0_0
abbrev rW : Rect S64x300 := Rect.unit (s := S64x300) ![0, 0] S64x300.size inb_S64x300_S64x300_0_0
abbrev rB : Rect S1x64 := Rect.unit (s := S1x64) ![0, 0] S1x64.size inb_S1x64_S1x64_0_0
abbrev rO : Rect S4096x64 := Rect.unit (s := S4096x64) ![0, 0] S4096x64.size inb_S4096x64_S4096x64_0_0

/-- What the body leaves in the output block: its one store, of the product-plus-bias of the three loaded blocks. -/
def out0_3 (x0 : Vec F S4096x300 .f32) (x1 : Vec F S64x300 .f32) (x2 : Vec F S1x64 .f32) : Vec F S4096x64 .f32 :=
  View.canon [⟨rO, k0_pay1 (View.ld x0 rX) (View.ld x1 rW) (View.ld x2 rB)⟩]

/-- The one store covers the block. -/
theorem cover0_3 (p0 : Vec F S4096x64 .f32) (y : S4096x64.Idx) :
    ∃ pc ∈ ([⟨rO, p0⟩] : List (View.Piece (Elt F) S4096x64 .f32)), y ∈ pc.1.set :=
  View.cover_of_tiled [⟨rO, p0⟩] S4096x64.size (by rfl) y

/-! ## The body's triple -/

set_option maxHeartbeats 1000000 in
/-- On whole staging memrefs, the three inputs' at contents `x0 x1 x2` and the output's at anything, the body runs to
    the continuation with the inputs as they were and the output at `out0_3 x0 x1 x2`. -/
theorem sound_kernel0 (c : Dev nD) (E : Set ℕ) (i : grid0.Coords) (arg1 : Memref sig .tc .vmem S4096x300 .f32) (harg1 : arg1.IsWhole) (arg2 : Memref sig .tc .vmem S64x300 .f32) (harg2 : arg2.IsWhole) (arg3 : Memref sig .tc .vmem S1x64 .f32) (harg3 : arg3.IsWhole) (arg4 : Memref sig .tc .vmem S4096x64 .f32) (harg4 : arg4.IsWhole)
    (x0 : Vec F S4096x300 .f32) (x1 : Vec F S64x300 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__xc_kernel i arg1 harg1 arg2 harg2 arg3 harg3 arg4 harg4) K := by
  simp only [cc0__xc_kernel_eq_skeleton]; unfold cc0__xc_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The call's proof data -/

/-- The arrays as the call finds them; after the body at point `t` each input's buffer at its block and the output's at
    `out0_3` of the three blocks; the invariant is the scoped buffers the call does not stage and the generator register,
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end

end Cert.Kernel.Frm

end
-- ==== Proof.KbR1Runs.lean ====
/-
  The second kernel launch, on a grid of 2 batch tiles by 8 steps along the set axis: each step takes a block of
  8 × 128 rows of the compressed array and the whole transposed hidden-set array, and adds into a scratch accumulator
  of 8 × 256 one row per batch entry (an 8-trip counted loop). The accumulator is zeroed at a tile's first step and copied
  to the output block at its last step; the output block is untouched at the other steps. Here: the blocks the grid
  point reads, the two conditions on the step decided over the grid, and the body's triple in each of the three cases
  (first step, middle step, last step), the pieces each buffer ends with found by running the body.
-/
import proofs.«111605_j15960098472410_2_alg».proof.Proof.Gen.Kernel.Launch
import proofs.«111605_j15960098472410_2_alg».proof.Proof.Gen.Kernel.Skeleton
import proofs.«111605_j15960098472410_2_alg».proof.Proof.Gen.Kernel.Points
import proofs.«111605_j15960098472410_2_alg».proof.Proof.Gen.Kernel.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The blocks the grid point reads -/

/-- Window `w`'s block at grid point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of compressed rows: its staging buffer holds the block of the point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The hidden-set array: one block, the same at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end

/-! ## The two conditions on the step -/

/-- "This is the tile's first step": the body's first conditional, from the grid coordinates. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "This is the tile's last step": the body's second conditional. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Away from a tile's last step the output block is idle (nothing is stored into it) and is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The memrefs the body is called with -/

abbrev VO1_2 : View sig .tc .vmem S8x256 .f32 := (Memref.whole cc1_stg2_0 : Memref sig .tc .vmem S8x256 .f32).view
abbrev ms1_0 (t : Fin cfg1.N) : Memref sig .tc .vmem S8x128x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x256x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x256 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1_0 : Memref sig .tc .vmem S8x256 .f32 := Memref.whole cc1_scratch0
abbrev VS1_0 : View sig .tc .vmem S8x256 .f32 := scM1_0.view

/-- The scoped buffers this launch does not stage, one by one, the accumulator owned as a memref; and the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1_0 fullShare d)) ∗ (∃ r, prngReg c r)) := by
  unfold Pipeline.ΦA; rw [scopedRest1_eq]; simp only [scM1_0, owns_whole]; try rfl

/-! ## The body's triple, case by case -/

set_option maxHeartbeats 4000000 in
/-- FIRST STEP of a tile (the accumulator zeroed, then eight rows added; the output block untouched): the pieces the
    accumulator ends with, and the triple. -/
noncomputable def kernelRun1_A (c : Dev nD) (i : grid1.Coords) (arg2 : Memref sig .tc .vmem S8x128x64 .f32) (harg2 : arg2.IsWhole) (arg3 : Memref sig .tc .vmem S64x256x64 .f32) (harg3 : arg3.IsWhole) (arg4 : Memref sig .tc .vmem S8x256 .f32) (harg4 : arg4.IsWhole) (arg5 : Memref sig .tc .vmem S8x256 .f32) (harg5 : arg5.IsWhole) (hc0 : cond1_0 i) (hc1 : ¬cond1_1 i)
    (x0 : Vec F S8x128x64 .f32) (x1 : Vec F S64x256x64 .f32) :
    Σ' (L2 : List (View.Piece (Elt F) S8x256 .f32)), { LS0 : List (View.Piece (Elt F) S8x256 .f32) //
      ∀ (xi2 : Vec F S8x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__lambda_ i arg2 harg2 arg3 harg3 arg4 harg4 arg5 harg5) K } := by
  refine ⟨[], ?_, fun xi2 E K => ?run⟩
  case run =>
    simp only [cc1__lambda__eq_skeleton]; unfold cc1__lambda__skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- MIDDLE STEP (eight rows added to the accumulator as the step before left it; the output block untouched). -/
noncomputable def kernelRun1_B (c : Dev nD) (i : grid1.Coords) (arg2 : Memref sig .tc .vmem S8x128x64 .f32) (harg2 : arg2.IsWhole) (arg3 : Memref sig .tc .vmem S64x256x64 .f32) (harg3 : arg3.IsWhole) (arg4 : Memref sig .tc .vmem S8x256 .f32) (harg4 : arg4.IsWhole) (arg5 : Memref sig .tc .vmem S8x256 .f32) (harg5 : arg5.IsWhole) (hc0 : ¬cond1_0 i) (hc1 : ¬cond1_1 i)
    (x0 : Vec F S8x128x64 .f32) (x1 : Vec F S64x256x64 .f32) (xs0 : Vec F S8x256 .f32) :
    Σ' (L2 : List (View.Piece (Elt F) S8x256 .f32)), { LS0 : List (View.Piece (Elt F) S8x256 .f32) //
      ∀ (xi2 : Vec F S8x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__lambda_ i arg2 harg2 arg3 harg3 arg4 harg4 arg5 harg5) K } := by
  refine ⟨[], ?_, fun xi2 E K => ?run⟩
  case run =>
    simp only [cc1__lambda__eq_skeleton]; unfold cc1__lambda__skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- LAST STEP of a tile (eight rows added, then the accumulator copied whole into the output block). -/
noncomputable def kernelRun1_C (c : Dev nD) (i : grid1.Coords) (arg2 : Memref sig .tc .vmem S8x128x64 .f32) (harg2 : arg2.IsWhole) (arg3 : Memref sig .tc .vmem S64x256x64 .f32) (harg3 : arg3.IsWhole) (arg4 : Memref sig .tc .vmem S8x256 .f32) (harg4 : arg4.IsWhole) (arg5 : Memref sig .tc .vmem S8x256 .f32) (harg5 : arg5.IsWhole) (hc0 : ¬cond1_0 i) (hc1 : cond1_1 i)
    (x0 : Vec F S8x128x64 .f32) (x1 : Vec F S64x256x64 .f32) (xs0 : Vec F S8x256 .f32) :
    Σ' (L2 : List (View.Piece (Elt F) S8x256 .f32)), { LS0 : List (View.Piece (Elt F) S8x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__lambda_ i arg2 harg2 arg3 harg3 arg4 harg4 arg5 harg5) K } := by
  refine ⟨?_, ?_, fun E K => ?run⟩
  case run =>
    simp only [cc1__lambda__eq_skeleton]; unfold cc1__lambda__skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Frm

end
-- ==== Proof.KbR1.lean ====
/-
  The second kernel launch, continued: what the accumulator and the output block hold after every grid point (by
  recursion on the point: a tile's first step starts from zero, every other step from what the step before left), the
  invariant that carries the accumulator from point to point, the proof data, and the body obligation.
-/
import proofs.«111605_j15960098472410_2_alg».proof.Proof.Gen.Kernel.Launch
import proofs.«111605_j15960098472410_2_alg».proof.Proof.Gen.Kernel.Skeleton
import proofs.«111605_j15960098472410_2_alg».proof.Proof.Gen.Kernel.Points
import proofs.«111605_j15960098472410_2_alg».proof.Proof.Gen.Kernel.Loops
import proofs.«111605_j15960098472410_2_alg».proof.Proof.KbR1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What each case leaves -/

/-- First step: the accumulator's pieces are a zero fill of the whole buffer under the eight row stores, so they cover it. -/
theorem scover1_A_0 (c : Dev nD) (i : grid1.Coords) (arg2 : Memref sig .tc .vmem S8x128x64 .f32) (harg2 : arg2.IsWhole) (arg3 : Memref sig .tc .vmem S64x256x64 .f32) (harg3 : arg3.IsWhole) (arg4 : Memref sig .tc .vmem S8x256 .f32) (harg4 : arg4.IsWhole) (arg5 : Memref sig .tc .vmem S8x256 .f32) (harg5 : arg5.IsWhole) (hc0 : cond1_0 i) (hc1 : ¬cond1_1 i)
    (x0 : Vec F S8x128x64 .f32) (x1 : Vec F S64x256x64 .f32) (y : S8x256.Idx) :
    ∃ pc ∈ (kernelRun1_A c i arg2 harg2 arg3 harg3 arg4 harg4 arg5 harg5 hc0 hc1 x0 x1).2.1, y ∈ pc.1.set :=
  View.cover_of_wholeMem (kernelRun1_A c i arg2 harg2 arg3 harg3 arg4 harg4 arg5 harg5 hc0 hc1 x0 x1).2.1 (by sl_whole_mem) y

/-- What the first step leaves in the accumulator: its pieces read back. -/
def sout1_A_0 (c : Dev nD) (i : grid1.Coords) (arg2 : Memref sig .tc .vmem S8x128x64 .f32) (harg2 : arg2.IsWhole) (arg3 : Memref sig .tc .vmem S64x256x64 .f32) (harg3 : arg3.IsWhole) (arg4 : Memref sig .tc .vmem S8x256 .f32) (harg4 : arg4.IsWhole) (arg5 : Memref sig .tc .vmem S8x256 .f32) (harg5 : arg5.IsWhole) (hc0 : cond1_0 i) (hc1 : ¬cond1_1 i)
    (x0 : Vec F S8x128x64 .f32) (x1 : Vec F S64x256x64 .f32) : Vec F S8x256 .f32 :=
  VS1_0.read (Elt F) (VS1_0.writes (Elt F) VS1_0.junk (kernelRun1_A c i arg2 harg2 arg3 harg3 arg4 harg4 arg5 harg5 hc0 hc1 x0 x1).2.1)

/-- Middle step: the eight row stores tile the accumulator. -/
theorem scover1_B_0 (c : Dev nD) (i : grid1.Coords) (arg2 : Memref sig .tc .vmem S8x128x64 .f32) (harg2 : arg2.IsWhole) (arg3 : Memref sig .tc .vmem S64x256x64 .f32) (harg3 : arg3.IsWhole) (arg4 : Memref sig .tc .vmem S8x256 .f32) (harg4 : arg4.IsWhole) (arg5 : Memref sig .tc .vmem S8x256 .f32) (harg5 : arg5.IsWhole) (hc0 : ¬cond1_0 i) (hc1 : ¬cond1_1 i)
    (x0 : Vec F S8x128x64 .f32) (x1 : Vec F S64x256x64 .f32) (xs0 : Vec F S8x256 .f32) (y : S8x256.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S1x256.size (by sl_kernel_rfl) y

def sout1_B_0 (c : Dev nD) (i : grid1.Coords) (arg2 : Memref sig .tc .vmem S8x128x64 .f32) (harg2 : arg2.IsWhole) (arg3 : Memref sig .tc .vmem S64x256x64 .f32) (harg3 : arg3.IsWhole) (arg4 : Memref sig .tc .vmem S8x256 .f32) (harg4 : arg4.IsWhole) (arg5 : Memref sig .tc .vmem S8x256 .f32) (harg5 : arg5.IsWhole) (hc0 : ¬cond1_0 i) (hc1 : ¬cond1_1 i)
    (x0 : Vec F S8x128x64 .f32) (x1 : Vec F S64x256x64 .f32) (xs0 : Vec F S8x256 .f32) : Vec F S8x256 .f32 :=
  VS1_0.read (Elt F) (VS1_0.writes (Elt F) VS1_0.junk (kernelRun1_B c i arg2 harg2 arg3 harg3 arg4 harg4 arg5 harg5 hc0 hc1 x0 x1 xs0).2.1)

/-- Last step: the one whole copy covers the output block, -/
theorem cover1_C_2 (c : Dev nD) (i : grid1.Coords) (arg2 : Memref sig .tc .vmem S8x128x64 .f32) (harg2 : arg2.IsWhole) (arg3 : Memref sig .tc .vmem S64x256x64 .f32) (harg3 : arg3.IsWhole) (arg4 : Memref sig .tc .vmem S8x256 .f32) (harg4 : arg4.IsWhole) (arg5 : Memref sig .tc .vmem S8x256 .f32) (harg5 : arg5.IsWhole) (hc0 : ¬cond1_0 i) (hc1 : cond1_1 i)
    (x0 : Vec F S8x128x64 .f32) (x1 : Vec F S64x256x64 .f32) (xs0 : Vec F S8x256 .f32) (y : S8x256.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S8x256.size (by sl_kernel_rfl) y

/-- what it leaves there, -/
def out1_C_2 (c : Dev nD) (i : grid1.Coords) (arg2 : Memref sig .tc .vmem S8x128x64 .f32) (harg2 : arg2.IsWhole) (arg3 : Memref sig .tc .vmem S64x256x64 .f32) (harg3 : arg3.IsWhole) (arg4 : Memref sig .tc .vmem S8x256 .f32) (harg4 : arg4.IsWhole) (arg5 : Memref sig .tc .vmem S8x256 .f32) (harg5 : arg5.IsWhole) (hc0 : ¬cond1_0 i) (hc1 : cond1_1 i)
    (x0 : Vec F S8x128x64 .f32) (x1 : Vec F S64x256x64 .f32) (xs0 : Vec F S8x256 .f32) : Vec F S8x256 .f32 :=
  VO1_2.read (Elt F) (VO1_2.writes (Elt F) VO1_2.junk (kernelRun1_C c i arg2 harg2 arg3 harg3 arg4 harg4 arg5 harg5 hc0 hc1 x0 x1 xs0).1)

/-- and the eight row stores tile the accumulator. -/
theorem scover1_C_0 (c : Dev nD) (i : grid1.Coords) (arg2 : Memref sig .tc .vmem S8x128x64 .f32) (harg2 : arg2.IsWhole) (arg3 : Memref sig .tc .vmem S64x256x64 .f32) (harg3 : arg3.IsWhole) (arg4 : Memref sig .tc .vmem S8x256 .f32) (harg4 : arg4.IsWhole) (arg5 : Memref sig .tc .vmem S8x256 .f32) (harg5 : arg5.IsWhole) (hc0 : ¬cond1_0 i) (hc1 : cond1_1 i)
    (x0 : Vec F S8x128x64 .f32) (x1 : Vec F S64x256x64 .f32) (xs0 : Vec F S8x256 .f32) (y : S8x256.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S1x256.size (by sl_kernel_rfl) y

def sout1_C_0 (c : Dev nD) (i : grid1.Coords) (arg2 : Memref sig .tc .vmem S8x128x64 .f32) (harg2 : arg2.IsWhole) (arg3 : Memref sig .tc .vmem S64x256x64 .f32) (harg3 : arg3.IsWhole) (arg4 : Memref sig .tc .vmem S8x256 .f32) (harg4 : arg4.IsWhole) (arg5 : Memref sig .tc .vmem S8x256 .f32) (harg5 : arg5.IsWhole) (hc0 : ¬cond1_0 i) (hc1 : cond1_1 i)
    (x0 : Vec F S8x128x64 .f32) (x1 : Vec F S64x256x64 .f32) (xs0 : Vec F S8x256 .f32) : Vec F S8x256 .f32 :=
  VS1_0.read (Elt F) (VS1_0.writes (Elt F) VS1_0.junk (kernelRun1_C c i arg2 harg2 arg3 harg3 arg4 harg4 arg5 harg5 hc0 hc1 x0 x1 xs0).2.1)

end

section
variable (V : (c : Dev nD) → (b : Ref sig .tc) → Buf (Elt F) ((c : Thread nD τ).loc b))

/-! ## The accumulation, point by point -/

/-- What the output block's staging buffer and the accumulator hold after the body at position `n` (a pair: output, accumulator):
    a tile's first step from the point's blocks alone, every other step also from what the step before left in the accumulator.
    Away from a tile's last step the output component is a placeholder nothing consults (the block is idle there). -/
def outsAt1 (c : Dev nD) : (n : ℕ) → n < cfg1.N → Vec F S8x256 .f32 × Vec F S8x256 .f32
  | 0, hn => (VO1_2.read (Elt F) VO1_2.junk, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 8 = 0 then
      (VO1_2.read (Elt F) VO1_2.junk, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩))
    else
      if h1 : (n + 1) % 8 = 7 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2,
         sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (VO1_2.read (Elt F) VO1_2.junk, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- At a tile's first step. -/
theorem outsAt1_A (c : Dev nD) (t : Fin cfg1.N) (h0 : t.val % 8 = 0) (h1 : ¬t.val % 8 = 7) :
    outsAt1 V c t.val t.isLt = (VO1_2.read (Elt F) VO1_2.junk, sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans rfl

/-- At a middle step: over what the step before left. -/
theorem outsAt1_B (c : Dev nD) (t : Fin cfg1.N) (h0 : ¬t.val % 8 = 0) (h1 : ¬t.val % 8 = 7) :
    outsAt1 V c t.val t.isLt = (VO1_2.read (Elt F) VO1_2.junk, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a tile's last step: both components, over what the step before left. -/
theorem outsAt1_C (c : Dev nD) (t : Fin cfg1.N) (h0 : ¬t.val % 8 = 0) (h1 : t.val % 8 = 7) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2,
      sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the accumulator -/

/-- Before the first point: every scoped buffer the launch does not stage at anything, the generator register at some
    state. Afterwards: the same with the accumulator at what the point before left in it. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The launch's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

end

section
variable (V : (c : Dev nD) → (b : Ref sig .tc) → Buf (Elt F) ((c : Thread nD τ).loc b))

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; the closed forms say which case the point is in; the
    invariant hands the body the accumulator at what the point before left (at anything at the very first point) and
    takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 16 := lt_of_lt_of_eq t.isLt (show cfg1.N = 16 from N_1)
  by_cases h0 : t.val % 8 = 0
  · have h1 : ¬t.val % 8 = 7 := by omega
    rw [Dat.leavesExact_idle (dat1 V c) 2 t (idleAt1_2 t (fun h => h1 ((hcond1_1 t).mp h))) (noFlush1_2 t (fun h => h1 ((hcond1_1 t).mp h)))]
    rw [outsAt1_A V c t h0 h1]
    unfold sout1_A_0; (try dsimp only)
    by_cases hz : t.val = 0
    · rw [PhiS_castSucc V c t, PhiS_zero V c _ _ hz, PhiA1_eq]
      iintro ⟨⟨⟨HR0, HR1, HR2, HR3, HR4, HR5, HS0⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HR0 HR1 HR2 HR3 HR4 HR5 HS0 Hg]
      · isplitl [HR0 HR1 HR2 HR3 HR4 HR5 HS0]
        · isplitl [HR0]; · iexact HR0
          isplitl [HR1]; · iexact HR1
          isplitl [HR2]; · iexact HR2
          isplitl [HR3]; · iexact HR3
          isplitl [HR4]; · iexact HR4
          isplitl [HR5]; · iexact HR5
          unfold owns; iexists _; isplitr
          swap; · iexact HS0
          ipureintro; exact View.read_writes_of_cover _ _ _ _ _ (scover1_A_0 c _ _ _ _ _ _ _ _ _ _ _ _ _)
        iexact Hg
      isplitl [Ho]; · iexact Ho
      isplitl [H0]; · iexact H0
      isplitl [H1]; · iexact H1
      iexists _; iexact H2
    · rw [PhiS_castSucc V c t, PhiS_pos V c _ _ hz]
      iintro ⟨⟨⟨HR0, HR1, HR2, HR3, HR4, HR5, HS0⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HR0 HR1 HR2 HR3 HR4 HR5 HS0 Hg]
      · isplitl [HR0 HR1 HR2 HR3 HR4 HR5 HS0]
        · isplitl [HR0]; · iexact HR0
          isplitl [HR1]; · iexact HR1
          isplitl [HR2]; · iexact HR2
          isplitl [HR3]; · iexact HR3
          isplitl [HR4]; · iexact HR4
          isplitl [HR5]; · iexact HR5
          unfold owns; iexists _; isplitr
          swap; · iexact HS0
          ipureintro; exact View.read_writes_of_cover _ _ _ _ _ (scover1_A_0 c _ _ _ _ _ _ _ _ _ _ _ _ _)
        iexact Hg
      isplitl [Ho]; · iexact Ho
      isplitl [H0]; · iexact H0
      isplitl [H1]; · iexact H1
      iexists _; iexact H2
  · have hz : t.val ≠ 0 := by intro h; rw [h] at h0; exact h0 rfl
    by_cases h1 : t.val % 8 = 7
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C_2 sout1_C_0; (try dsimp only)
      rw [PhiS_castSucc V c t, PhiS_pos V c _ _ hz]
      iintro ⟨⟨⟨HR0, HR1, HR2, HR3, HR4, HR5, HS0⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HR0 HR1 HR2 HR3 HR4 HR5 HS0 Hg]
      · isplitl [HR0 HR1 HR2 HR3 HR4 HR5 HS0]
        · isplitl [HR0]; · iexact HR0
          isplitl [HR1]; · iexact HR1
          isplitl [HR2]; · iexact HR2
          isplitl [HR3]; · iexact HR3
          isplitl [HR4]; · iexact HR4
          isplitl [HR5]; · iexact HR5
          unfold owns; iexists _; isplitr
          swap; · iexact HS0
          ipureintro; exact View.read_writes_of_cover _ _ _ _ _ (scover1_C_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B_0; (try dsimp only)
      rw [PhiS_castSucc V c t, PhiS_pos V c _ _ hz]
      iintro ⟨⟨⟨HR0, HR1, HR2, HR3, HR4, HR5, HS0⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HR0 HR1 HR2 HR3 HR4 HR5 HS0 Hg]
      · isplitl [HR0 HR1 HR2 HR3 HR4 HR5 HS0]
        · isplitl [HR0]; · iexact HR0
          isplitl [HR1]; · iexact HR1
          isplitl [HR2]; · iexact HR2
          isplitl [HR3]; · iexact HR3
          isplitl [HR4]; · iexact HR4
          isplitl [HR5]; · iexact HR5
          unfold owns; iexists _; isplitr
          swap; · iexact HS0
          ipureintro; exact View.read_writes_of_cover _ _ _ _ _ (scover1_B_0 c _ _ _ _ _ _ _ _ _ _ _ _ _ _)
        iexact Hg
      isplitl [Ho]; · iexact Ho
      isplitl [H0]; · iexact H0
      isplitl [H1]; · iexact H1
      iexists _; iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the kernel is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point the invariant gives the same back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HR0, HR1, HR2, HR3, HR4, HR5, HS0⟩, Hg⟩
  isplitl [HR0 HR1 HR2 HR3 HR4 HR5 HS0]
  · isplitl [HR0]; · iexact HR0
    isplitl [HR1]; · iexact HR1
    isplitl [HR2]; · iexact HR2
    isplitl [HR3]; · iexact HR3
    isplitl [HR4]; · iexact HR4
    isplitl [HR5]; · iexact HR5
    iexists _; iexact HS0
  iexact Hg

theorem hout1 (c : Dev nD) : (dat1 V c).Φ (Fin.last cfg1.N) ⊢ Pipeline.ΦA spec1 c :=
  Phi_out1 V c _ (by rw [Fin.val_last]; have : cfg1.N = 16 := N_1; omega)

end

end Cert.Kernel.Frm

end
-- ==== Proof.KbRun.lean ====
/-
  The whole program: a reshape of the bias and of the input, the first kernel launch, a reshape of the compressed
  array and a transpose of the hidden sets, the second kernel launch. The buffer contents at each of the five
  boundaries are a fold from the launch memory; each launch is entered from the contents before it and left with
  its output array at what its write-backs leave. Every weakly fair execution terminates, the four argument arrays
  end as launched, and the result array ends at what the second launch's write-backs leave.
-/
import proofs.«111605_j15960098472410_2_alg».proof.Proof.Gen.Kernel.Launch
import proofs.«111605_j15960098472410_2_alg».proof.Proof.Gen.Kernel.Skeleton
import proofs.«111605_j15960098472410_2_alg».proof.Proof.Gen.Kernel.Points
import proofs.«111605_j15960098472410_2_alg».proof.Proof.Gen.Kernel.Loops
import proofs.«111605_j15960098472410_2_alg».proof.Proof.Gen.Kernel.Regions
import proofs.«111605_j15960098472410_2_alg».proof.Proof.KbR0
import proofs.«111605_j15960098472410_2_alg».proof.Proof.KbR1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### No operation and no launch writes an argument array -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg3) := rfl

/-! ## The proof data family and what rides along -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The two launches as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (hin1 (V3 m ρ) c)
    unfold Pipeline.ΦA
    iintro ⟨Hp, -, Hr⟩
    isplitl [Hr]; · iexact Hr
    iexact Hp
  hout c := by
    refine Idealize.SL.BI.BIBase.Entails.trans (hout1 (V3 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution terminates, nothing faulting; the result array ends
    at what the second launch's write-backs leave, and the four argument arrays end as launched. -/
theorem run : θ_run defs (onTc (τ := τ) (main (F := F))) ⟨m, fun _ => 0, ρ⟩ (fun r => ∀ c : Dev nD,
      r.2.mem ((c.tc : Thread nD τ).loc main_v5) = (dat1 (V3 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v5 (by decide))).trans (W4_arr m ρ c 2),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.Kernel.Frm

end
-- ==== Proof.KiR0.lean ====
/-
  The first kernel launch: one block of 4096 rows of the flattened input (16384 × 300) against the whole weight
  matrix (64 × 300) and the bias row (1 × 64), stored as 4096 rows of the compressed array (16384 × 64). The body
  is straight-line: three whole-block loads, one matrix product into a zero accumulator plus the broadcast bias,
  one whole-block store. Everything here is stated at a parameter `V`, the buffer contents when the call is entered.
-/
import proofs.«111605_j15960098472410_2_alg».proof.Proof.Gen.KernelIdeal.Launch
import proofs.«111605_j15960098472410_2_alg».proof.Proof.Gen.KernelIdeal.Skeleton
import proofs.«111605_j15960098472410_2_alg».proof.Proof.Gen.KernelIdeal.Points
import proofs.«111605_j15960098472410_2_alg».proof.Proof.Gen.KernelIdeal.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The blocks the grid point reads -/

/-- Window `w`'s block at grid point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of the input: its staging buffer holds the block of the point, whether or not it was fetched there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix: one block, the same at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias row: one block, the same at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: four whole blocks -/

abbrev rX : Rect S4096x300 := Rect.unit (s := S4096x300) ![0, 0] S4096x300.size inb_S4096x300_S4096x300_0_0
abbrev rW : Rect S64x300 := Rect.unit (s := S64x300) ![0, 0] S64x300.size inb_S64x300_S64x300_0_0
abbrev rB : Rect S1x64 := Rect.unit (s := S1x64) ![0, 0] S1x64.size inb_S1x64_S1x64_0_0
abbrev rO : Rect S4096x64 := Rect.unit (s := S4096x64) ![0, 0] S4096x64.size inb_S4096x64_S4096x64_0_0

/-- What the body leaves in the output block: its one store, of the product-plus-bias of the three loaded blocks. -/
def out0_3 (x0 : Vec F S4096x300 .f32) (x1 : Vec F S64x300 .f32) (x2 : Vec F S1x64 .f32) : Vec F S4096x64 .f32 :=
  View.canon [⟨rO, k0_pay1 (View.ld x0 rX) (View.ld x1 rW) (View.ld x2 rB)⟩]

/-- The one store covers the block. -/
theorem cover0_3 (p0 : Vec F S4096x64 .f32) (y : S4096x64.Idx) :
    ∃ pc ∈ ([⟨rO, p0⟩] : List (View.Piece (Elt F) S4096x64 .f32)), y ∈ pc.1.set :=
  View.cover_of_tiled [⟨rO, p0⟩] S4096x64.size (by rfl) y

/-! ## The body's triple -/

set_option maxHeartbeats 1000000 in
/-- On whole staging memrefs, the three inputs' at contents `x0 x1 x2` and the output's at anything, the body runs to
    the continuation with the inputs as they were and the output at `out0_3 x0 x1 x2`. -/
theorem sound_kernel0 (c : Dev nD) (E : Set ℕ) (i : grid0.Coords) (arg1 : Memref sig .tc .vmem S4096x300 .f32) (harg1 : arg1.IsWhole) (arg2 : Memref sig .tc .vmem S64x300 .f32) (harg2 : arg2.IsWhole) (arg3 : Memref sig .tc .vmem S1x64 .f32) (harg3 : arg3.IsWhole) (arg4 : Memref sig .tc .vmem S4096x64 .f32) (harg4 : arg4.IsWhole)
    (x0 : Vec F S4096x300 .f32) (x1 : Vec F S64x300 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__xc_kernel i arg1 harg1 arg2 harg2 arg3 harg3 arg4 harg4) K := by
  simp only [cc0__xc_kernel_eq_skeleton]; unfold cc0__xc_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The call's proof data -/

/-- The arrays as the call finds them; after the body at point `t` each input's buffer at its block and the output's at
    `out0_3` of the three blocks; the invariant is the scoped buffers the call does not stage and the generator register,
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Frm

end
-- ==== Proof.KiR1Runs.lean ====
/-
  The second kernel launch, on a grid of 2 batch tiles by 8 steps along the set axis: each step takes a block of
  8 × 128 rows of the compressed array and the whole transposed hidden-set array, and adds into a scratch accumulator
  of 8 × 256 one row per batch entry (an 8-trip counted loop). The accumulator is zeroed at a tile's first step and copied
  to the output block at its last step; the output block is untouched at the other steps. Here: the blocks the grid
  point reads, the two conditions on the step decided over the grid, and the body's triple in each of the three cases
  (first step, middle step, last step), the pieces each buffer ends with found by running the body.
-/
import proofs.«111605_j15960098472410_2_alg».proof.Proof.Gen.KernelIdeal.Launch
import proofs.«111605_j15960098472410_2_alg».proof.Proof.Gen.KernelIdeal.Skeleton
import proofs.«111605_j15960098472410_2_alg».proof.Proof.Gen.KernelIdeal.Points
import proofs.«111605_j15960098472410_2_alg».proof.Proof.Gen.KernelIdeal.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The blocks the grid point reads -/

/-- Window `w`'s block at grid point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of compressed rows: its staging buffer holds the block of the point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The hidden-set array: one block, the same at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end

/-! ## The two conditions on the step -/

/-- "This is the tile's first step": the body's first conditional, from the grid coordinates. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "This is the tile's last step": the body's second conditional. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Away from a tile's last step the output block is idle (nothing is stored into it) and is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The memrefs the body is called with -/

abbrev VO1_2 : View sig .tc .vmem S8x256 .f32 := (Memref.whole cc1_stg2_0 : Memref sig .tc .vmem S8x256 .f32).view
abbrev ms1_0 (t : Fin cfg1.N) : Memref sig .tc .vmem S8x128x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x256x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x256 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1_0 : Memref sig .tc .vmem S8x256 .f32 := Memref.whole cc1_scratch0
abbrev VS1_0 : View sig .tc .vmem S8x256 .f32 := scM1_0.view

/-- The scoped buffers this launch does not stage, one by one, the accumulator owned as a memref; and the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1_0 fullShare d)) ∗ (∃ r, prngReg c r)) := by
  unfold Pipeline.ΦA; rw [scopedRest1_eq]; simp only [scM1_0, owns_whole]; try rfl

/-! ## The body's triple, case by case -/

set_option maxHeartbeats 4000000 in
/-- FIRST STEP of a tile (the accumulator zeroed, then eight rows added; the output block untouched): the pieces the
    accumulator ends with, and the triple. -/
noncomputable def kernelRun1_A (c : Dev nD) (i : grid1.Coords) (arg2 : Memref sig .tc .vmem S8x128x64 .f32) (harg2 : arg2.IsWhole) (arg3 : Memref sig .tc .vmem S64x256x64 .f32) (harg3 : arg3.IsWhole) (arg4 : Memref sig .tc .vmem S8x256 .f32) (harg4 : arg4.IsWhole) (arg5 : Memref sig .tc .vmem S8x256 .f32) (harg5 : arg5.IsWhole) (hc0 : cond1_0 i) (hc1 : ¬cond1_1 i)
    (x0 : Vec F S8x128x64 .f32) (x1 : Vec F S64x256x64 .f32) :
    Σ' (L2 : List (View.Piece (Elt F) S8x256 .f32)), { LS0 : List (View.Piece (Elt F) S8x256 .f32) //
      ∀ (xi2 : Vec F S8x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__lambda_ i arg2 harg2 arg3 harg3 arg4 harg4 arg5 harg5) K } := by
  refine ⟨[], ?_, fun xi2 E K => ?run⟩
  case run =>
    simp only [cc1__lambda__eq_skeleton]; unfold cc1__lambda__skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- MIDDLE STEP (eight rows added to the accumulator as the step before left it; the output block untouched). -/
noncomputable def kernelRun1_B (c : Dev nD) (i : grid1.Coords) (arg2 : Memref sig .tc .vmem S8x128x64 .f32) (harg2 : arg2.IsWhole) (arg3 : Memref sig .tc .vmem S64x256x64 .f32) (harg3 : arg3.IsWhole) (arg4 : Memref sig .tc .vmem S8x256 .f32) (harg4 : arg4.IsWhole) (arg5 : Memref sig .tc .vmem S8x256 .f32) (harg5 : arg5.IsWhole) (hc0 : ¬cond1_0 i) (hc1 : ¬cond1_1 i)
    (x0 : Vec F S8x128x64 .f32) (x1 : Vec F S64x256x64 .f32) (xs0 : Vec F S8x256 .f32) :
    Σ' (L2 : List (View.Piece (Elt F) S8x256 .f32)), { LS0 : List (View.Piece (Elt F) S8x256 .f32) //
      ∀ (xi2 : Vec F S8x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__lambda_ i arg2 harg2 arg3 harg3 arg4 harg4 arg5 harg5) K } := by
  refine ⟨[], ?_, fun xi2 E K => ?run⟩
  case run =>
    simp only [cc1__lambda__eq_skeleton]; unfold cc1__lambda__skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- LAST STEP of a tile (eight rows added, then the accumulator copied whole into the output block). -/
noncomputable def kernelRun1_C (c : Dev nD) (i : grid1.Coords) (arg2 : Memref sig .tc .vmem S8x128x64 .f32) (harg2 : arg2.IsWhole) (arg3 : Memref sig .tc .vmem S64x256x64 .f32) (harg3 : arg3.IsWhole) (arg4 : Memref sig .tc .vmem S8x256 .f32) (harg4 : arg4.IsWhole) (arg5 : Memref sig .tc .vmem S8x256 .f32) (harg5 : arg5.IsWhole) (hc0 : ¬cond1_0 i) (hc1 : cond1_1 i)
    (x0 : Vec F S8x128x64 .f32) (x1 : Vec F S64x256x64 .f32) (xs0 : Vec F S8x256 .f32) :
    Σ' (L2 : List (View.Piece (Elt F) S8x256 .f32)), { LS0 : List (View.Piece (Elt F) S8x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__lambda_ i arg2 harg2 arg3 harg3 arg4 harg4 arg5 harg5) K } := by
  refine ⟨?_, ?_, fun E K => ?run⟩
  case run =>
    simp only [cc1__lambda__eq_skeleton]; unfold cc1__lambda__skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Frm

end
-- ==== Proof.KiR1.lean ====
/-
  The second kernel launch, continued: what the accumulator and the output block hold after every grid point (by
  recursion on the point: a tile's first step starts from zero, every other step from what the step before left), the
  invariant that carries the accumulator from point to point, the proof data, and the body obligation.
-/
import proofs.«111605_j15960098472410_2_alg».proof.Proof.Gen.KernelIdeal.Launch
import proofs.«111605_j15960098472410_2_alg».proof.Proof.Gen.KernelIdeal.Skeleton
import proofs.«111605_j15960098472410_2_alg».proof.Proof.Gen.KernelIdeal.Points
import proofs.«111605_j15960098472410_2_alg».proof.Proof.Gen.KernelIdeal.Loops
import proofs.«111605_j15960098472410_2_alg».proof.Proof.KiR1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What each case leaves -/

/-- First step: the accumulator's pieces are a zero fill of the whole buffer under the eight row stores, so they cover it. -/
theorem scover1_A_0 (c : Dev nD) (i : grid1.Coords) (arg2 : Memref sig .tc .vmem S8x128x64 .f32) (harg2 : arg2.IsWhole) (arg3 : Memref sig .tc .vmem S64x256x64 .f32) (harg3 : arg3.IsWhole) (arg4 : Memref sig .tc .vmem S8x256 .f32) (harg4 : arg4.IsWhole) (arg5 : Memref sig .tc .vmem S8x256 .f32) (harg5 : arg5.IsWhole) (hc0 : cond1_0 i) (hc1 : ¬cond1_1 i)
    (x0 : Vec F S8x128x64 .f32) (x1 : Vec F S64x256x64 .f32) (y : S8x256.Idx) :
    ∃ pc ∈ (kernelRun1_A c i arg2 harg2 arg3 harg3 arg4 harg4 arg5 harg5 hc0 hc1 x0 x1).2.1, y ∈ pc.1.set :=
  View.cover_of_wholeMem (kernelRun1_A c i arg2 harg2 arg3 harg3 arg4 harg4 arg5 harg5 hc0 hc1 x0 x1).2.1 (by sl_whole_mem) y

/-- What the first step leaves in the accumulator: its pieces read back. -/
def sout1_A_0 (c : Dev nD) (i : grid1.Coords) (arg2 : Memref sig .tc .vmem S8x128x64 .f32) (harg2 : arg2.IsWhole) (arg3 : Memref sig .tc .vmem S64x256x64 .f32) (harg3 : arg3.IsWhole) (arg4 : Memref sig .tc .vmem S8x256 .f32) (harg4 : arg4.IsWhole) (arg5 : Memref sig .tc .vmem S8x256 .f32) (harg5 : arg5.IsWhole) (hc0 : cond1_0 i) (hc1 : ¬cond1_1 i)
    (x0 : Vec F S8x128x64 .f32) (x1 : Vec F S64x256x64 .f32) : Vec F S8x256 .f32 :=
  VS1_0.read (Elt F) (VS1_0.writes (Elt F) VS1_0.junk (kernelRun1_A c i arg2 harg2 arg3 harg3 arg4 harg4 arg5 harg5 hc0 hc1 x0 x1).2.1)

/-- Middle step: the eight row stores tile the accumulator. -/
theorem scover1_B_0 (c : Dev nD) (i : grid1.Coords) (arg2 : Memref sig .tc .vmem S8x128x64 .f32) (harg2 : arg2.IsWhole) (arg3 : Memref sig .tc .vmem S64x256x64 .f32) (harg3 : arg3.IsWhole) (arg4 : Memref sig .tc .vmem S8x256 .f32) (harg4 : arg4.IsWhole) (arg5 : Memref sig .tc .vmem S8x256 .f32) (harg5 : arg5.IsWhole) (hc0 : ¬cond1_0 i) (hc1 : ¬cond1_1 i)
    (x0 : Vec F S8x128x64 .f32) (x1 : Vec F S64x256x64 .f32) (xs0 : Vec F S8x256 .f32) (y : S8x256.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S1x256.size (by sl_kernel_rfl) y

def sout1_B_0 (c : Dev nD) (i : grid1.Coords) (arg2 : Memref sig .tc .vmem S8x128x64 .f32) (harg2 : arg2.IsWhole) (arg3 : Memref sig .tc .vmem S64x256x64 .f32) (harg3 : arg3.IsWhole) (arg4 : Memref sig .tc .vmem S8x256 .f32) (harg4 : arg4.IsWhole) (arg5 : Memref sig .tc .vmem S8x256 .f32) (harg5 : arg5.IsWhole) (hc0 : ¬cond1_0 i) (hc1 : ¬cond1_1 i)
    (x0 : Vec F S8x128x64 .f32) (x1 : Vec F S64x256x64 .f32) (xs0 : Vec F S8x256 .f32) : Vec F S8x256 .f32 :=
  VS1_0.read (Elt F) (VS1_0.writes (Elt F) VS1_0.junk (kernelRun1_B c i arg2 harg2 arg3 harg3 arg4 harg4 arg5 harg5 hc0 hc1 x0 x1 xs0).2.1)

/-- Last step: the one whole copy covers the output block, -/
theorem cover1_C_2 (c : Dev nD) (i : grid1.Coords) (arg2 : Memref sig .tc .vmem S8x128x64 .f32) (harg2 : arg2.IsWhole) (arg3 : Memref sig .tc .vmem S64x256x64 .f32) (harg3 : arg3.IsWhole) (arg4 : Memref sig .tc .vmem S8x256 .f32) (harg4 : arg4.IsWhole) (arg5 : Memref sig .tc .vmem S8x256 .f32) (harg5 : arg5.IsWhole) (hc0 : ¬cond1_0 i) (hc1 : cond1_1 i)
    (x0 : Vec F S8x128x64 .f32) (x1 : Vec F S64x256x64 .f32) (xs0 : Vec F S8x256 .f32) (y : S8x256.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S8x256.size (by sl_kernel_rfl) y

/-- what it leaves there, -/
def out1_C_2 (c : Dev nD) (i : grid1.Coords) (arg2 : Memref sig .tc .vmem S8x128x64 .f32) (harg2 : arg2.IsWhole) (arg3 : Memref sig .tc .vmem S64x256x64 .f32) (harg3 : arg3.IsWhole) (arg4 : Memref sig .tc .vmem S8x256 .f32) (harg4 : arg4.IsWhole) (arg5 : Memref sig .tc .vmem S8x256 .f32) (harg5 : arg5.IsWhole) (hc0 : ¬cond1_0 i) (hc1 : cond1_1 i)
    (x0 : Vec F S8x128x64 .f32) (x1 : Vec F S64x256x64 .f32) (xs0 : Vec F S8x256 .f32) : Vec F S8x256 .f32 :=
  VO1_2.read (Elt F) (VO1_2.writes (Elt F) VO1_2.junk (kernelRun1_C c i arg2 harg2 arg3 harg3 arg4 harg4 arg5 harg5 hc0 hc1 x0 x1 xs0).1)

/-- and the eight row stores tile the accumulator. -/
theorem scover1_C_0 (c : Dev nD) (i : grid1.Coords) (arg2 : Memref sig .tc .vmem S8x128x64 .f32) (harg2 : arg2.IsWhole) (arg3 : Memref sig .tc .vmem S64x256x64 .f32) (harg3 : arg3.IsWhole) (arg4 : Memref sig .tc .vmem S8x256 .f32) (harg4 : arg4.IsWhole) (arg5 : Memref sig .tc .vmem S8x256 .f32) (harg5 : arg5.IsWhole) (hc0 : ¬cond1_0 i) (hc1 : cond1_1 i)
    (x0 : Vec F S8x128x64 .f32) (x1 : Vec F S64x256x64 .f32) (xs0 : Vec F S8x256 .f32) (y : S8x256.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S1x256.size (by sl_kernel_rfl) y

def sout1_C_0 (c : Dev nD) (i : grid1.Coords) (arg2 : Memref sig .tc .vmem S8x128x64 .f32) (harg2 : arg2.IsWhole) (arg3 : Memref sig .tc .vmem S64x256x64 .f32) (harg3 : arg3.IsWhole) (arg4 : Memref sig .tc .vmem S8x256 .f32) (harg4 : arg4.IsWhole) (arg5 : Memref sig .tc .vmem S8x256 .f32) (harg5 : arg5.IsWhole) (hc0 : ¬cond1_0 i) (hc1 : cond1_1 i)
    (x0 : Vec F S8x128x64 .f32) (x1 : Vec F S64x256x64 .f32) (xs0 : Vec F S8x256 .f32) : Vec F S8x256 .f32 :=
  VS1_0.read (Elt F) (VS1_0.writes (Elt F) VS1_0.junk (kernelRun1_C c i arg2 harg2 arg3 harg3 arg4 harg4 arg5 harg5 hc0 hc1 x0 x1 xs0).2.1)

end

section
variable (V : (c : Dev nD) → (b : Ref sig .tc) → Buf (Elt F) ((c : Thread nD τ).loc b))

/-! ## The accumulation, point by point -/

/-- What the output block's staging buffer and the accumulator hold after the body at position `n` (a pair: output, accumulator):
    a tile's first step from the point's blocks alone, every other step also from what the step before left in the accumulator.
    Away from a tile's last step the output component is a placeholder nothing consults (the block is idle there). -/
def outsAt1 (c : Dev nD) : (n : ℕ) → n < cfg1.N → Vec F S8x256 .f32 × Vec F S8x256 .f32
  | 0, hn => (VO1_2.read (Elt F) VO1_2.junk, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 8 = 0 then
      (VO1_2.read (Elt F) VO1_2.junk, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩))
    else
      if h1 : (n + 1) % 8 = 7 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2,
         sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (VO1_2.read (Elt F) VO1_2.junk, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- At a tile's first step. -/
theorem outsAt1_A (c : Dev nD) (t : Fin cfg1.N) (h0 : t.val % 8 = 0) (h1 : ¬t.val % 8 = 7) :
    outsAt1 V c t.val t.isLt = (VO1_2.read (Elt F) VO1_2.junk, sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans rfl

/-- At a middle step: over what the step before left. -/
theorem outsAt1_B (c : Dev nD) (t : Fin cfg1.N) (h0 : ¬t.val % 8 = 0) (h1 : ¬t.val % 8 = 7) :
    outsAt1 V c t.val t.isLt = (VO1_2.read (Elt F) VO1_2.junk, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a tile's last step: both components, over what the step before left. -/
theorem outsAt1_C (c : Dev nD) (t : Fin cfg1.N) (h0 : ¬t.val % 8 = 0) (h1 : t.val % 8 = 7) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2,
      sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the accumulator -/

/-- Before the first point: every scoped buffer the launch does not stage at anything, the generator register at some
    state. Afterwards: the same with the accumulator at what the point before left in it. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The launch's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

end

section
variable (V : (c : Dev nD) → (b : Ref sig .tc) → Buf (Elt F) ((c : Thread nD τ).loc b))

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; the closed forms say which case the point is in; the
    invariant hands the body the accumulator at what the point before left (at anything at the very first point) and
    takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 16 := lt_of_lt_of_eq t.isLt (show cfg1.N = 16 from N_1)
  by_cases h0 : t.val % 8 = 0
  · have h1 : ¬t.val % 8 = 7 := by omega
    rw [Dat.leavesExact_idle (dat1 V c) 2 t (idleAt1_2 t (fun h => h1 ((hcond1_1 t).mp h))) (noFlush1_2 t (fun h => h1 ((hcond1_1 t).mp h)))]
    rw [outsAt1_A V c t h0 h1]
    unfold sout1_A_0; (try dsimp only)
    by_cases hz : t.val = 0
    · rw [PhiS_castSucc V c t, PhiS_zero V c _ _ hz, PhiA1_eq]
      iintro ⟨⟨⟨HR0, HR1, HR2, HR3, HR4, HR5, HS0⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HR0 HR1 HR2 HR3 HR4 HR5 HS0 Hg]
      · isplitl [HR0 HR1 HR2 HR3 HR4 HR5 HS0]
        · isplitl [HR0]; · iexact HR0
          isplitl [HR1]; · iexact HR1
          isplitl [HR2]; · iexact HR2
          isplitl [HR3]; · iexact HR3
          isplitl [HR4]; · iexact HR4
          isplitl [HR5]; · iexact HR5
          unfold owns; iexists _; isplitr
          swap; · iexact HS0
          ipureintro; exact View.read_writes_of_cover _ _ _ _ _ (scover1_A_0 c _ _ _ _ _ _ _ _ _ _ _ _ _)
        iexact Hg
      isplitl [Ho]; · iexact Ho
      isplitl [H0]; · iexact H0
      isplitl [H1]; · iexact H1
      iexists _; iexact H2
    · rw [PhiS_castSucc V c t, PhiS_pos V c _ _ hz]
      iintro ⟨⟨⟨HR0, HR1, HR2, HR3, HR4, HR5, HS0⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HR0 HR1 HR2 HR3 HR4 HR5 HS0 Hg]
      · isplitl [HR0 HR1 HR2 HR3 HR4 HR5 HS0]
        · isplitl [HR0]; · iexact HR0
          isplitl [HR1]; · iexact HR1
          isplitl [HR2]; · iexact HR2
          isplitl [HR3]; · iexact HR3
          isplitl [HR4]; · iexact HR4
          isplitl [HR5]; · iexact HR5
          unfold owns; iexists _; isplitr
          swap; · iexact HS0
          ipureintro; exact View.read_writes_of_cover _ _ _ _ _ (scover1_A_0 c _ _ _ _ _ _ _ _ _ _ _ _ _)
        iexact Hg
      isplitl [Ho]; · iexact Ho
      isplitl [H0]; · iexact H0
      isplitl [H1]; · iexact H1
      iexists _; iexact H2
  · have hz : t.val ≠ 0 := by intro h; rw [h] at h0; exact h0 rfl
    by_cases h1 : t.val % 8 = 7
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C_2 sout1_C_0; (try dsimp only)
      rw [PhiS_castSucc V c t, PhiS_pos V c _ _ hz]
      iintro ⟨⟨⟨HR0, HR1, HR2, HR3, HR4, HR5, HS0⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HR0 HR1 HR2 HR3 HR4 HR5 HS0 Hg]
      · isplitl [HR0 HR1 HR2 HR3 HR4 HR5 HS0]
        · isplitl [HR0]; · iexact HR0
          isplitl [HR1]; · iexact HR1
          isplitl [HR2]; · iexact HR2
          isplitl [HR3]; · iexact HR3
          isplitl [HR4]; · iexact HR4
          isplitl [HR5]; · iexact HR5
          unfold owns; iexists _; isplitr
          swap; · iexact HS0
          ipureintro; exact View.read_writes_of_cover _ _ _ _ _ (scover1_C_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B_0; (try dsimp only)
      rw [PhiS_castSucc V c t, PhiS_pos V c _ _ hz]
      iintro ⟨⟨⟨HR0, HR1, HR2, HR3, HR4, HR5, HS0⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HR0 HR1 HR2 HR3 HR4 HR5 HS0 Hg]
      · isplitl [HR0 HR1 HR2 HR3 HR4 HR5 HS0]
        · isplitl [HR0]; · iexact HR0
          isplitl [HR1]; · iexact HR1
          isplitl [HR2]; · iexact HR2
          isplitl [HR3]; · iexact HR3
          isplitl [HR4]; · iexact HR4
          isplitl [HR5]; · iexact HR5
          unfold owns; iexists _; isplitr
          swap; · iexact HS0
          ipureintro; exact View.read_writes_of_cover _ _ _ _ _ (scover1_B_0 c _ _ _ _ _ _ _ _ _ _ _ _ _ _)
        iexact Hg
      isplitl [Ho]; · iexact Ho
      isplitl [H0]; · iexact H0
      isplitl [H1]; · iexact H1
      iexists _; iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the kernel is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point the invariant gives the same back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HR0, HR1, HR2, HR3, HR4, HR5, HS0⟩, Hg⟩
  isplitl [HR0 HR1 HR2 HR3 HR4 HR5 HS0]
  · isplitl [HR0]; · iexact HR0
    isplitl [HR1]; · iexact HR1
    isplitl [HR2]; · iexact HR2
    isplitl [HR3]; · iexact HR3
    isplitl [HR4]; · iexact HR4
    isplitl [HR5]; · iexact HR5
    iexists _; iexact HS0
  iexact Hg

theorem hout1 (c : Dev nD) : (dat1 V c).Φ (Fin.last cfg1.N) ⊢ Pipeline.ΦA spec1 c :=
  Phi_out1 V c _ (by rw [Fin.val_last]; have : cfg1.N = 16 := N_1; omega)

end

end Cert.KernelIdeal.Frm

end
-- ==== Proof.KiRun.lean ====
/-
  The whole program: a reshape of the bias and of the input, the first kernel launch, a reshape of the compressed
  array and a transpose of the hidden sets, the second kernel launch. The buffer contents at each of the five
  boundaries are a fold from the launch memory; each launch is entered from the contents before it and left with
  its output array at what its write-backs leave. Every weakly fair execution terminates, the four argument arrays
  end as launched, and the result array ends at what the second launch's write-backs leave.
-/
import proofs.«111605_j15960098472410_2_alg».proof.Proof.Gen.KernelIdeal.Launch
import proofs.«111605_j15960098472410_2_alg».proof.Proof.Gen.KernelIdeal.Skeleton
import proofs.«111605_j15960098472410_2_alg».proof.Proof.Gen.KernelIdeal.Points
import proofs.«111605_j15960098472410_2_alg».proof.Proof.Gen.KernelIdeal.Loops
import proofs.«111605_j15960098472410_2_alg».proof.Proof.Gen.KernelIdeal.Regions
import proofs.«111605_j15960098472410_2_alg».proof.Proof.KiR0
import proofs.«111605_j15960098472410_2_alg».proof.Proof.KiR1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### No operation and no launch writes an argument array -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg3) := rfl

/-! ## The proof data family and what rides along -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The two launches as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (hin1 (V3 m ρ) c)
    unfold Pipeline.ΦA
    iintro ⟨Hp, -, Hr⟩
    isplitl [Hr]; · iexact Hr
    iexact Hp
  hout c := by
    refine Idealize.SL.BI.BIBase.Entails.trans (hout1 (V3 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution terminates, nothing faulting; the result array ends
    at what the second launch's write-backs leave, and the four argument arrays end as launched. -/
theorem run : θ_run defs (onTc (τ := τ) (main (F := F))) ⟨m, fun _ => 0, ρ⟩ (fun r => ∀ c : Dev nD,
      r.2.mem ((c.tc : Thread nD τ).loc main_v5) = (dat1 (V3 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v5 (by decide))).trans (W4_arr m ρ c 2),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.Frm

end
-- ==== Proof.PoolSpec.lean ====
/-
  The pooled score of a set-valued hidden layer, as ONE function of the four argument arrays, and the
  order-theoretic and additive facts that let two different arrangements of the same arithmetic be read as it.

  For a batch entry b, a position s, a hidden unit k, a set o and a set element n,
      xc b s k      = (Σ d, X[b,s,d] · W[k,d]) + B[k]              (the projected input)
      score b s o n = Σ k, xc b s k · H[o,n,k]                     (its product with element n of set o)
      pooled b o    = Σ s, max (max over n of score b s o n) 0      (the set's best element, clipped at 0, summed over s).

  Two arrangements occur. One clips every score at 0 first and then folds `max` from the bottom element over n;
  the other takes the maximum of the 64 scores as a left-nested chain of binary maxima, in three stretches, and
  clips the result. They agree because x ↦ max x 0 preserves binary maxima (a lattice identity, valid at the
  infinities), so it commutes with the maximum of any nonempty finite family. The sum over the 1024 positions is
  taken either in one piece or as eight blocks of 128; addition on the extended reals is commutative and
  associative, so the two are equal with no finiteness assumption.
-/
import Idealize.ShloMosaic.PureOps.Ideal
import Idealize.ShloMosaic.PureOps.Ideal.Laws
import Idealize.ShloMosaic.Lib.ValueIdx
import Mathlib.Order.Fin.Basic
import Mathlib.Algebra.BigOperators.Fin
import Mathlib.Data.EReal.Basic

noncomputable section

open scoped BigOperators

namespace Cert.Pool

/-! ## The specification -/

/-- The projected input: row (b, s) of X against row k of W, plus the bias B[k]. -/
def xc (X : Fin 16 → Fin 1024 → Fin 300 → EReal) (W : Fin 64 → Fin 300 → EReal) (B : Fin 64 → EReal)
    (b : Fin 16) (s : Fin 1024) (k : Fin 64) : EReal :=
  (∑ d : Fin 300, X b s d * W k d) + B k

/-- The score of element n of set o at position (b, s). -/
def score (X : Fin 16 → Fin 1024 → Fin 300 → EReal) (W : Fin 64 → Fin 300 → EReal) (B : Fin 64 → EReal)
    (H : Fin 256 → Fin 64 → Fin 64 → EReal) (b : Fin 16) (s : Fin 1024) (o : Fin 256) (n : Fin 64) : EReal :=
  ∑ k : Fin 64, xc X W B b s k * H o n k

/-- The pooled value: over the positions s, the sum of the best score of set o, clipped at 0. The maximum over
    the 64 elements is `Finset.sup'` over `Finset.univ` (a maximum of a nonempty family: no bottom element in it). -/
def pooled (X : Fin 16 → Fin 1024 → Fin 300 → EReal) (W : Fin 64 → Fin 300 → EReal) (B : Fin 64 → EReal)
    (H : Fin 256 → Fin 64 → Fin 64 → EReal) (b : Fin 16) (o : Fin 256) : EReal :=
  ∑ s : Fin 1024, max (Finset.univ.sup' Finset.univ_nonempty fun n : Fin 64 => score X W B H b s o n) 0

/-! ## Clipping at 0 commutes with a maximum of a nonempty family -/

/-- x ↦ max x 0 preserves binary maxima, hence the maximum of any nonempty finite family. -/
theorem max_sup'_zero {ι : Type*} (s : Finset ι) (hs : s.Nonempty) (f : ι → EReal) :
    max (s.sup' hs f) 0 = s.sup' hs fun n => max (f n) 0 :=
  Finset.apply_sup'_eq_sup'_comp hs (fun x => max x 0) (fun x y => sup_sup_distrib_right x y 0)

/-- The fold of `max` from the bottom element over a nonempty finite index type, of the family clipped at 0, is the
    family's maximum clipped at 0: the bottom element is absorbed by the first entry, and clipping commutes with the
    maximum. -/
theorem relu_sup {ι : Type*} [Fintype ι] [Nonempty ι] (f : ι → EReal) :
    (Finset.univ : Finset ι).fold max ⊥ (fun n => max (f n) 0)
      = max (Finset.univ.sup' Finset.univ_nonempty f) 0 := by
  rw [max_sup'_zero, Finset.sup'_eq_sup]
  rfl

/-! ## A left-nested chain of binary maxima -/

/-- A running maximum continued: from `a`, take the maximum with `c lo`, then with `c (lo + 1)`, …, `m` entries in
    all, each new entry on the right of the running value:
    `chainFrom a c lo m = max (… (max (max a (c lo)) (c (lo + 1))) …) (c (lo + m - 1))`. -/
def chainFrom (a : EReal) (c : ℕ → EReal) (lo : ℕ) : ℕ → EReal
  | 0 => a
  | m + 1 => max (chainFrom a c lo m) (c (lo + m))

/-- A continued running maximum is below a bound exactly when its start and each entry it took are. -/
theorem chainFrom_le_iff (a : EReal) (c : ℕ → EReal) (lo m : ℕ) (u : EReal) :
    chainFrom a c lo m ≤ u ↔ a ≤ u ∧ ∀ n, lo ≤ n → n < lo + m → c n ≤ u := by
  induction m with
  | zero =>
    refine ⟨fun h => ⟨h, fun n h1 h2 => absurd h2 (by omega)⟩, fun h => h.1⟩
  | succ m ih =>
    show max (chainFrom a c lo m) (c (lo + m)) ≤ u ↔ _
    rw [max_le_iff, ih]
    constructor
    · rintro ⟨⟨ha, hc⟩, hl⟩
      refine ⟨ha, fun n h1 h2 => ?_⟩
      rcases Nat.lt_or_ge n (lo + m) with h | h
      · exact hc n h1 h
      · obtain rfl : n = lo + m := by omega
        exact hl
    · rintro ⟨ha, hc⟩
      exact ⟨⟨ha, fun n h1 h2 => hc n h1 (by omega)⟩, hc (lo + m) (by omega) (by omega)⟩

/-- THE CHAIN OF 64: started at entry 0 and continued over entries 1–25, then 26–55, then 56–63 (three stretches
    of 25, 30 and 8 further entries), the running maximum is the maximum of the 64 entries. -/
theorem chain64 (c : ℕ → EReal) :
    chainFrom (chainFrom (chainFrom (c 0) c 1 25) c 26 30) c 56 8
      = Finset.univ.sup' Finset.univ_nonempty fun n : Fin 64 => c n.val := by
  refine eq_of_forall_ge_iff fun u => ?_
  rw [chainFrom_le_iff, chainFrom_le_iff, chainFrom_le_iff, Finset.sup'_le_iff]
  constructor
  · rintro ⟨⟨⟨h0, h1⟩, h2⟩, h3⟩ n _
    have hn := n.isLt
    rcases Nat.lt_or_ge n.val 1 with a1 | a1
    · have e : n.val = 0 := by omega
      rw [e]; exact h0
    · rcases Nat.lt_or_ge n.val 26 with a2 | a2
      · exact h1 n.val a1 (by omega)
      · rcases Nat.lt_or_ge n.val 56 with a3 | a3
        · exact h2 n.val a2 (by omega)
        · exact h3 n.val a3 (by omega)
  · intro h
    exact ⟨⟨⟨h ⟨0, by omega⟩ (Finset.mem_univ _), fun n _ h2 => h ⟨n, by omega⟩ (Finset.mem_univ _)⟩,
      fun n _ h2 => h ⟨n, by omega⟩ (Finset.mem_univ _)⟩, fun n _ h2 => h ⟨n, by omega⟩ (Finset.mem_univ _)⟩

/-! ## The sum over 1024 positions as eight blocks of 128 -/

/-- A sum over 1024 positions is the sum over eight blocks of the sums over each block's 128 positions. -/
theorem sum_split {M : Type*} [AddCommMonoid M] (f : Fin 1024 → M) :
    ∑ s : Fin 1024, f s = ∑ q : Fin 8, ∑ r : Fin 128, f ⟨q.val * 128 + r.val, by omega⟩ := by
  have e := Equiv.sum_comp (finProdFinEquiv (m := 8) (n := 128)) f
  rw [← e, Fintype.sum_prod_type]
  refine Finset.sum_congr rfl fun q _ => Finset.sum_congr rfl fun r _ => congrArg f (Fin.ext ?_)
  show r.val + 128 * q.val = q.val * 128 + r.val
  omega

end Cert.Pool

end
-- ==== Proof.PoolPay.lean ====
/-
  The kernel's two simplest stored values, read at an entry, and the two matrix products the kernel computes, each
  read as a finite sum.

  The first kernel stores the projected input: for a block of 4096 rows, row r against each of the 64 weight rows,
  plus the bias (one row, repeated down the block). The second kernel starts its accumulator at zero. Both matrix
  products contract the LAST axis of each operand (a product with a transpose) into a zero accumulator; on the
  extended reals they are plain sums of products, and the narrowing of the operands to a shorter float format is the
  identity.
-/
import proofs.«111605_j15960098472410_2_alg».proof.Proof.PoolSpec
import proofs.«111605_j15960098472410_2_alg».proof.Proof.Gen.KernelIdeal.Skeleton
import Idealize.ShloMosaic.Lib.ValueLayout
import Idealize.ShloMosaic.PureOps.Ideal.Laws

noncomputable section

open scoped BigOperators

namespace Cert.Pool.Pay

open Cert.KernelIdeal Cert.KernelIdeal.Gen Idealize.ShloMosaic Idealize.ShloMosaic.ValueIdx

theorem proj_matmul_apply_lhs0 (i : S4096x64.Idx) (c : dot_S4096x300_S64x300_S4096x64_1_1_0_0_n_n.contr.Idx) : (dot_S4096x300_S64x300_S4096x64_1_1_0_0_n_n.lhsIdx i c 0).val = (i 0).val := by
  unfold DotDims.lhsIdx
  rw [dif_neg (show ¬(0 : Fin S4096x300.rank) ∈ dot_S4096x300_S64x300_S4096x64_1_1_0_0_n_n.lhsBatch by decide),
    dif_pos (show (0 : Fin S4096x300.rank) ∈ dot_S4096x300_S64x300_S4096x64_1_1_0_0_n_n.lhsNonContracting by decide)]
  rfl
theorem proj_matmul_apply_rhs0 (i : S4096x64.Idx) (c : dot_S4096x300_S64x300_S4096x64_1_1_0_0_n_n.contr.Idx) : (dot_S4096x300_S64x300_S4096x64_1_1_0_0_n_n.rhsIdx i c 0).val = (i 1).val := by
  unfold DotDims.rhsIdx
  rw [dif_neg (show ¬(0 : Fin S64x300.rank) ∈ dot_S4096x300_S64x300_S4096x64_1_1_0_0_n_n.rhsBatch by decide),
    dif_pos (show (0 : Fin S64x300.rank) ∈ dot_S4096x300_S64x300_S4096x64_1_1_0_0_n_n.rhsNonContracting by decide)]
  rfl

/-- A product of a [4096, 300] block with the transpose of a [64, 300] one, accumulated into zero: entry (p, q) is the sum over the
    300 shared coordinates of row p of the first times row q of the second. -/
theorem proj_matmul_apply (l : FVec Ideal S4096x300 .bf16) (r : FVec Ideal S64x300 .bf16) (p : Fin 4096) (q : Fin 64) :
    FloatOps.matmul dot_S4096x300_S64x300_S4096x64_1_1_0_0_n_n none l r (constant (F := Ideal) S4096x64 .f32 0x00000000#32) (ix2 p q)
      = ∑ k : Fin 300, l (ix2 p k) * r (ix2 q k) := by
  rw [Ideal.matmul_constant_zero_apply, ← Equiv.sum_comp (contrEquiv1 dot_S4096x300_S64x300_S4096x64_1_1_0_0_n_n 300 rfl rfl).symm]
  refine Finset.sum_congr rfl fun k _ => ?_
  have hk := contrEquiv1_symm_val dot_S4096x300_S64x300_S4096x64_1_1_0_0_n_n 300 rfl rfl k
  have el : dot_S4096x300_S64x300_S4096x64_1_1_0_0_n_n.lhsIdx (ix2 p q) ((contrEquiv1 dot_S4096x300_S64x300_S4096x64_1_1_0_0_n_n 300 rfl rfl).symm k) = ix2 p k :=
    funext fun a => Fin.ext (by
      match a with
      | ⟨0, _⟩ => exact proj_matmul_apply_lhs0 _ _
      | ⟨1, _⟩ => exact (dot_S4096x300_S64x300_S4096x64_1_1_0_0_n_n.lhsIdx_val_of_single rfl _ _).trans hk)
  have er : dot_S4096x300_S64x300_S4096x64_1_1_0_0_n_n.rhsIdx (ix2 p q) ((contrEquiv1 dot_S4096x300_S64x300_S4096x64_1_1_0_0_n_n 300 rfl rfl).symm k) = ix2 q k :=
    funext fun a => Fin.ext (by
      match a with
      | ⟨0, _⟩ => exact proj_matmul_apply_rhs0 _ _
      | ⟨1, _⟩ => exact (dot_S4096x300_S64x300_S4096x64_1_1_0_0_n_n.rhsIdx_val_of_single rfl _ _).trans hk)
  rw [el, er]

theorem score_matmul_apply_lhs0 (i : S128x16384.Idx) (c : dot_S128x64_S16384x64_S128x16384_1_1_0_0_n_n.contr.Idx) : (dot_S128x64_S16384x64_S128x16384_1_1_0_0_n_n.lhsIdx i c 0).val = (i 0).val := by
  unfold DotDims.lhsIdx
  rw [dif_neg (show ¬(0 : Fin S128x64.rank) ∈ dot_S128x64_S16384x64_S128x16384_1_1_0_0_n_n.lhsBatch by decide),
    dif_pos (show (0 : Fin S128x64.rank) ∈ dot_S128x64_S16384x64_S128x16384_1_1_0_0_n_n.lhsNonContracting by decide)]
  rfl
theorem score_matmul_apply_rhs0 (i : S128x16384.Idx) (c : dot_S128x64_S16384x64_S128x16384_1_1_0_0_n_n.contr.Idx) : (dot_S128x64_S16384x64_S128x16384_1_1_0_0_n_n.rhsIdx i c 0).val = (i 1).val := by
  unfold DotDims.rhsIdx
  rw [dif_neg (show ¬(0 : Fin S16384x64.rank) ∈ dot_S128x64_S16384x64_S128x16384_1_1_0_0_n_n.rhsBatch by decide),
    dif_pos (show (0 : Fin S16384x64.rank) ∈ dot_S128x64_S16384x64_S128x16384_1_1_0_0_n_n.rhsNonContracting by decide)]
  rfl

/-- A product of a [128, 64] block with the transpose of a [16384, 64] one, accumulated into zero: entry (p, q) is the sum over the
    64 shared coordinates of row p of the first times row q of the second. -/
theorem score_matmul_apply (l : FVec Ideal S128x64 .bf16) (r : FVec Ideal S16384x64 .bf16) (p : Fin 128) (q : Fin 16384) :
    FloatOps.matmul dot_S128x64_S16384x64_S128x16384_1_1_0_0_n_n none l r (constant (F := Ideal) S128x16384 .f32 0x00000000#32) (ix2 p q)
      = ∑ k : Fin 64, l (ix2 p k) * r (ix2 q k) := by
  rw [Ideal.matmul_constant_zero_apply, ← Equiv.sum_comp (contrEquiv1 dot_S128x64_S16384x64_S128x16384_1_1_0_0_n_n 64 rfl rfl).symm]
  refine Finset.sum_congr rfl fun k _ => ?_
  have hk := contrEquiv1_symm_val dot_S128x64_S16384x64_S128x16384_1_1_0_0_n_n 64 rfl rfl k
  have el : dot_S128x64_S16384x64_S128x16384_1_1_0_0_n_n.lhsIdx (ix2 p q) ((contrEquiv1 dot_S128x64_S16384x64_S128x16384_1_1_0_0_n_n 64 rfl rfl).symm k) = ix2 p k :=
    funext fun a => Fin.ext (by
      match a with
      | ⟨0, _⟩ => exact score_matmul_apply_lhs0 _ _
      | ⟨1, _⟩ => exact (dot_S128x64_S16384x64_S128x16384_1_1_0_0_n_n.lhsIdx_val_of_single rfl _ _).trans hk)
  have er : dot_S128x64_S16384x64_S128x16384_1_1_0_0_n_n.rhsIdx (ix2 p q) ((contrEquiv1 dot_S128x64_S16384x64_S128x16384_1_1_0_0_n_n 64 rfl rfl).symm k) = ix2 q k :=
    funext fun a => Fin.ext (by
      match a with
      | ⟨0, _⟩ => exact score_matmul_apply_rhs0 _ _
      | ⟨1, _⟩ => exact (dot_S128x64_S16384x64_S128x16384_1_1_0_0_n_n.rhsIdx_val_of_single rfl _ _).trans hk)
  rw [el, er]

/-- THE PROJECTION BLOCK at an entry: row r of the input block against row k of the weights, plus the bias at k (the one
    bias row repeated down the 4096 rows). The two changes of float format are the identity on extended reals. -/
theorem k0_pay1_apply (v0 : Vec Ideal S4096x300 .f32) (v3 : Vec Ideal S64x300 .f32) (v6 : Vec Ideal S1x64 .f32)
    (r : Fin 4096) (k : Fin 64) :
    k0_pay1 (F := Ideal) v0 v3 v6 (ix2 r k)
      = (∑ d : Fin 300, v0 (ix2 r d) * v3 (ix2 k d)) + v6 (ix2 (0 : Fin 1) k) := by
  unfold k0_pay1
  simp only [matmul, shapeCast_self]
  refine congrArg₂ (· + ·) (proj_matmul_apply _ _ r k) ?_
  exact broadcastTo_1b_ab_apply _ _ r k

/-- THE ACCUMULATOR'S FIRST VALUE: zero at every entry. -/
theorem k1_pay1_apply (r : Fin 8) (o : Fin 256) : k1_pay1 (F := Ideal) (ix2 r o) = 0 := by
  unfold k1_pay1
  simp only [shapeCast_self]
  exact Ideal.ofBits_zero_f32

end Cert.Pool.Pay

end
-- ==== Proof.KiVal0.lean ====
/-
  What the first kernel launch leaves in the compressed array: entry (r, k) is the sum over d of row r of the
  flattened input times row k of the weights, plus entry k of the bias row. Each grid point writes back a block of
  4096 rows computed from its own 4096 input rows; the four blocks tile the array.
-/
import proofs.«111605_j15960098472410_2_alg».proof.Proof.KiR0
import proofs.«111605_j15960098472410_2_alg».proof.Proof.PoolPay
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- Row `r`, column `k` of the compressed array: the row of the flattened input against row `k` of the weights, plus the bias. -/
def xcArr (X1 : S16384x300.Idx → EReal) (Wm : S64x300.Idx → EReal) (B0 : S1x64.Idx → EReal) : S16384x64.Idx → EReal :=
  fun j => (∑ d : Fin 300, X1 (ix2 (j 0) d) * Wm (ix2 (j 1) d)) + B0 (ix2 (0 : Fin 1) (j 1))

theorem idx_facts0 : ∀ t : Fin cfg0.N, win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem flushed0 (c : Dev nD) (t : Fin cfg0.N) :
    (dat0 V c).flushed 3 t = ((cfg0.win 3).blk t).view.read (Elt Ideal) (xcArr (V c main_v1) (V c main_arg1) (V c main_v0)) := by
  show (cfg0.win 3).cut (grid0.coords t) ((dat0 V c).after 3 t) = _
  rw [after0_3]
  unfold out0_3
  rw [View.canon_unit_zero hz2]
  simp only [View.ld_unit_zero (S := S4096x300) hz2, View.ld_unit_zero (S := S64x300) hz2, View.ld_unit_zero (S := S1x64) hz2]
  funext j
  obtain ⟨p, q, rfl⟩ : ∃ (p : Fin 4096) (q : Fin 64), j = ix2 p q := ⟨j 0, j 1, eq_ix2 j⟩
  show k0_pay1 (F := Ideal) (iblk0 V c 0 t) (iblk0 V c 1 t) (iblk0 V c 2 t) (ix2 p q) = xcArr (V c main_v1) (V c main_arg1) (V c main_v0) (((cfg0.win 3).blk t).view.emb (ix2 p q))
  refine (Cert.Pool.Pay.k0_pay1_apply _ _ _ p q).trans ?_
  obtain ⟨e00, e01, e10, e11, e20, e21, e30, e31⟩ := idx_facts0 t
  have hX : ∀ d : Fin 300, iblk0 V c 0 t (ix2 p d) = V c main_v1 (ix2 ((((cfg0.win 3).blk t).view.emb (ix2 p q)) 0) d) := fun d => by
    show V c main_v1 (((cfg0.win 0).blk t).view.emb (ix2 p d)) = _
    refine congrArg (V c main_v1) ?_
    funext a; apply Fin.ext
    match a with
    | ⟨0, _⟩ => show win0_0.index t (0 : Fin 2) * 4096 + 1 * p.val = win0_3.index t (0 : Fin 2) * 4096 + 1 * p.val; omega
    | ⟨1, _⟩ => show win0_0.index t (1 : Fin 2) * 300 + 1 * d.val = d.val; omega
  have hW : ∀ d : Fin 300, iblk0 V c 1 t (ix2 q d) = V c main_arg1 (ix2 ((((cfg0.win 3).blk t).view.emb (ix2 p q)) 1) d) := fun d => by
    show V c main_arg1 (((cfg0.win 1).blk t).view.emb (ix2 q d)) = _
    refine congrArg (V c main_arg1) ?_
    funext a; apply Fin.ext
    match a with
    | ⟨0, _⟩ => show win0_1.index t (0 : Fin 2) * 64 + 1 * q.val = win0_3.index t (1 : Fin 2) * 64 + 1 * q.val; omega
    | ⟨1, _⟩ => show win0_1.index t (1 : Fin 2) * 300 + 1 * d.val = d.val; omega
  have hB : iblk0 V c 2 t (ix2 (0 : Fin 1) q) = V c main_v0 (ix2 (0 : Fin 1) ((((cfg0.win 3).blk t).view.emb (ix2 p q)) 1)) := by
    show V c main_v0 (((cfg0.win 2).blk t).view.emb (ix2 (0 : Fin 1) q)) = _
    refine congrArg (V c main_v0) ?_
    funext a; apply Fin.ext
    match a with
    | ⟨0, _⟩ => show win0_2.index t (0 : Fin 2) * 1 + 1 * 0 = 0; omega
    | ⟨1, _⟩ => show win0_2.index t (1 : Fin 2) * 64 + 1 * q.val = win0_3.index t (1 : Fin 2) * 64 + 1 * q.val; omega
  unfold xcArr
  rw [hB]
  refine congrArg (· + _) (Finset.sum_congr rfl fun d _ => ?_)
  rw [hX d, hW d]

/-- An index of the compressed array is in point `t`'s block iff its row lies in the point's range of 4096 rows. -/
theorem mem_blk0 (t : Fin cfg0.N) (i : S16384x64.Idx) :
    i ∈ ((cfg0.win 3).blk t).view.set ↔ ∀ a : Fin 2, win0_3.index t a * S4096x64.size a ≤ (i a).val ∧ (i a).val < win0_3.index t a * S4096x64.size a + S4096x64.size a := by
  show i ∈ ((View.whole main_v2).slice (win0_3.rect t)).set ↔ _
  rw [View.set_slice_whole, Rect.mem_set_unit]
  exact Iff.rfl

/-- The four blocks tile the array: row `r` is in the block of point `r / 4096`. -/
theorem cover0 (i : S16384x64.Idx) : ∃ t : Fin cfg0.N, (cfg0.win 3).flush t = true ∧ i ∈ ((cfg0.win 3).blk t).view.set := by
  have hi0 : (i 0).val < 16384 := (i 0).isLt
  have hi1 : (i 1).val < 64 := (i 1).isLt
  have hN : cfg0.N = 4 := N_0
  refine ⟨⟨(i 0).val / 4096, by rw [hN]; omega⟩, flush0_3 _, ?_⟩
  rw [mem_blk0]
  obtain ⟨-, -, -, -, -, -, e30, e31⟩ := idx_facts0 ⟨(i 0).val / 4096, by rw [hN]; omega⟩
  intro a
  match a with
  | ⟨0, _⟩ => show win0_3.index _ (0 : Fin 2) * 4096 ≤ (i 0).val ∧ (i 0).val < win0_3.index _ (0 : Fin 2) * 4096 + 4096; rw [e30]; show (i 0).val / 4096 * 4096 ≤ (i 0).val ∧ (i 0).val < (i 0).val / 4096 * 4096 + 4096; omega
  | ⟨1, _⟩ => show win0_3.index _ (1 : Fin 2) * 64 ≤ (i 1).val ∧ (i 1).val < win0_3.index _ (1 : Fin 2) * 64 + 64; rw [e31]; omega

/-- THE COMPRESSED ARRAY after the first launch: every entry its row's product with the weights plus the bias. -/
theorem final0 (c : Dev nD) : (dat0 V c).arrAt 3 cfg0.N = xcArr (V c main_v1) (V c main_arg1) (V c main_v0) :=
  (dat0 V c).arrAt_eq_of_cover 3 (xcArr (V c main_v1) (V c main_arg1) (V c main_v0)) (fun t _ => flushed0 V c t) cover0

end Cert.KernelIdeal.Val

end
-- ==== Proof.KiLoop.lean ====
/-
  The eight-trip loop of the second kernel launch, read as a value. Trip k loads slab k of the block of compressed
  rows and row k of the accumulator, and stores the row's step back at row k; no trip touches another trip's row.
  So after the first k trips the rows below k are stepped, each from what it held when the loop was entered, and the
  rest are as found (induction on k). From that: what each of the three cases of the body leaves in the accumulator,
  and what the last step copies into the output block, as one closed function of the input blocks and of the
  accumulator's contents before the step.
-/
import proofs.«111605_j15960098472410_2_alg».proof.Proof.KiR1
import Idealize.ShloMosaic.Lib.Pipeline.Value
import Idealize.ShloMosaic.Lib.ValueIdx
import Idealize.ShloMosaic.Lib.Writes

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx
open Idealize.SL Idealize.SL.Sem

variable {F : FTy → Type} [FloatOps F]

/-- Trip `k` of the loop touches row `k` of the accumulator and slab `k` (128 × 64) of the block of compressed rows. -/
abbrev accRow (k : Fin k1_t1_loop.trips) : Rect S8x256 := Rect.unit (s := S8x256) (k1_off2 k) S1x256.size (k1_off2_inb k)
abbrev xSlab (k : Fin k1_t1_loop.trips) : Rect S8x128x64 := Rect.unit (s := S8x128x64) (k1_off1 k) S1x128x64.size (k1_off1_inb k)

/-- One trip's arithmetic: from the hidden sets, one slab and the accumulator's row, the row's new contents. -/
def rowStep (h : Vec F S64x256x64 .f32) (x : Vec F S1x128x64 .f32) (a : Vec F S1x256 .f32) : FVec F S1x256 .f32 :=
  k1_pay3 (k1_pay4 (k1_pay2 h) x) (k1_pay6 (k1_pay4 (k1_pay2 h) x) (k1_pay5 (k1_pay2 h) x)) a

/-- What one trip stores: one piece, at its row, the row's step from the slab and from what the row held. -/
theorem tripL_eq (𝒱 : Variants) (c : Dev nD) (bd : Option 𝒱.V) (i : grid1.Coords) (arg2 : Memref sig .tc .vmem S8x128x64 .f32) (harg2 : arg2.IsWhole) (arg3 : Memref sig .tc .vmem S64x256x64 .f32) (harg3 : arg3.IsWhole) (arg4 : Memref sig .tc .vmem S8x256 .f32) (harg4 : arg4.IsWhole) (arg5 : Memref sig .tc .vmem S8x256 .f32) (harg5 : arg5.IsWhole) (v3 : Vec F S64x256x64 .f32) (X : BufTy.Contents (Elt F) arg2.view.ty) (k : Fin k1_t1_loop.trips) (f : BufTy.Contents (Elt F) arg5.view.ty) :
    tripL_k1_t1 (F := F) 𝒱 c bd i arg2 harg2 arg3 harg3 arg4 harg4 arg5 harg5 v3 X k f
      = [⟨accRow k, rowStep v3 (View.readAt (Elt F) arg2.view (xSlab k).toLoadRect X) (View.readAt (Elt F) arg5.view (accRow k).toLoadRect f)⟩] := by
  unfold tripL_k1_t1 trip_k1_t1; rfl

theorem trips8 : k1_t1_loop.trips = 8 := by decide

/-- The accumulator after the first `k` trips: rows below `k` stepped (each from what it held when the loop was entered), the others as found. -/
def partialAcc (arg2 : Memref sig .tc .vmem S8x128x64 .f32) (arg5 : Memref sig .tc .vmem S8x256 .f32) (v3 : Vec F S64x256x64 .f32) (X : BufTy.Contents (Elt F) arg2.view.ty) (f₀ : BufTy.Contents (Elt F) arg5.view.ty) (k : ℕ) : S8x256.Idx → Elt F .f32 :=
  fun j => if hj : (j 0).val < k ∧ (j 0).val < k1_t1_loop.trips then
      rowStep v3 (View.readAt (Elt F) arg2.view (xSlab ⟨(j 0).val, hj.2⟩).toLoadRect X) (View.readAt (Elt F) arg5.view (accRow ⟨(j 0).val, hj.2⟩).toLoadRect f₀) (ix2 (0 : Fin 1) (j 1))
    else arg5.view.read (Elt F) f₀ j

theorem read_pb (𝒱 : Variants) (c : Dev nD) (bd : Option 𝒱.V) (i : grid1.Coords) (arg2 : Memref sig .tc .vmem S8x128x64 .f32) (harg2 : arg2.IsWhole) (arg3 : Memref sig .tc .vmem S64x256x64 .f32) (harg3 : arg3.IsWhole) (arg4 : Memref sig .tc .vmem S8x256 .f32) (harg4 : arg4.IsWhole) (arg5 : Memref sig .tc .vmem S8x256 .f32) (harg5 : arg5.IsWhole) (v3 : Vec F S64x256x64 .f32) (X : BufTy.Contents (Elt F) arg2.view.ty) (f₀ : BufTy.Contents (Elt F) arg5.view.ty) : ∀ k, k ≤ k1_t1_loop.trips →
    arg5.view.read (Elt F) (arg5.view.writes (Elt F) f₀ (pb_k1_t1 (F := F) 𝒱 c bd i arg2 harg2 arg3 harg3 arg4 harg4 arg5 harg5 v3 X f₀ k)) = partialAcc arg2 arg5 v3 X f₀ k
  | 0, _ => by
    funext j
    show arg5.view.read (Elt F) f₀ j = _
    unfold partialAcc
    rw [dif_neg (fun h => Nat.not_lt_zero _ h.1)]
  | k + 1, hk => by
    have ih := read_pb 𝒱 c bd i arg2 harg2 arg3 harg3 arg4 harg4 arg5 harg5 v3 X f₀ k (Nat.le_of_succ_le hk)
    have hpb := pb_k1_t1_succ (F := F) 𝒱 c bd i arg2 harg2 arg3 harg3 arg4 harg4 arg5 harg5 v3 X f₀ ⟨k, hk⟩
    rw [show k + 1 = (⟨k, hk⟩ : Fin k1_t1_loop.trips).val + 1 from rfl, hpb, View.writes_append, tripL_eq]
    generalize arg5.view.writes (Elt F) f₀ (pb_k1_t1 (F := F) 𝒱 c bd i arg2 harg2 arg3 harg3 arg4 harg4 arg5 harg5 v3 X f₀ (⟨k, hk⟩ : Fin k1_t1_loop.trips).val) = g at ih ⊢
    funext j
    have hj0 : (j 0).val < 8 := (j 0).isLt
    have ht8 : k1_t1_loop.trips = 8 := trips8
    by_cases hj : (j 0).val = k
    · subst hj
      have hemb : (accRow ⟨(j 0).val, hk⟩).emb (ix2 (0 : Fin 1) (j 1)) = j := by
        funext a; apply Fin.ext
        match a with
        | ⟨0, _⟩ => show (k1_off2 ⟨(j 0).val, hk⟩) 0 + 1 * 0 = (j 0).val; rw [k1_off2_eq]; show (j 0).val + 1 * 0 = (j 0).val; omega
        | ⟨1, _⟩ => show (k1_off2 ⟨(j 0).val, hk⟩) 1 + 1 * (j 1).val = (j 1).val; rw [k1_off2_eq]; show 0 + 1 * (j 1).val = (j 1).val; omega
      have hrow : View.readAt (Elt F) arg5.view (accRow ⟨(j 0).val, hk⟩).toLoadRect g = View.readAt (Elt F) arg5.view (accRow ⟨(j 0).val, hk⟩).toLoadRect f₀ := by
        funext z
        show arg5.view.read (Elt F) g ((accRow ⟨(j 0).val, hk⟩).emb z) = arg5.view.read (Elt F) f₀ ((accRow ⟨(j 0).val, hk⟩).emb z)
        rw [ih]; unfold partialAcc
        rw [dif_neg]
        intro h
        have hz : (z 0).val < 1 := (z 0).isLt
        have he : ((((accRow ⟨(j 0).val, hk⟩).emb z) 0 : Fin _) : ℕ) = (j 0).val := by
          show (k1_off2 ⟨(j 0).val, hk⟩) 0 + 1 * (z 0).val = (j 0).val; rw [k1_off2_eq]; show (j 0).val + 1 * (z 0).val = (j 0).val; omega
        have := h.1
        omega
      refine ((congrArg _ hemb.symm).trans (View.read_writes_cons_emb arg5.view g (accRow ⟨(j 0).val, hk⟩) _ [] _)).trans ?_
      unfold partialAcc
      rw [dif_pos ⟨Nat.lt_succ_self _, by omega⟩, hrow]
    · have hnm : j ∉ Finset.univ.map (accRow ⟨k, hk⟩).emb := by
        rw [Rect.map_emb_univ, Rect.mem_set_unit]
        intro h
        have h0 : (k1_off2 ⟨k, hk⟩) 0 ≤ (j 0).val ∧ (j 0).val < (k1_off2 ⟨k, hk⟩) 0 + 1 := h 0
        rw [k1_off2_eq] at h0
        have h0' : k ≤ (j 0).val ∧ (j 0).val < k + 1 := h0
        omega
      rw [View.writes_singleton, View.read_slice_write_of_not_mem (accRow ⟨k, hk⟩) _ _ _ hnm, ih]
      unfold partialAcc
      by_cases hlt : (j 0).val < k
      · rw [dif_pos ⟨hlt, by omega⟩, dif_pos ⟨by show (j 0).val < k + 1; omega, by omega⟩]
      · rw [dif_neg (fun h => hlt h.1), dif_neg (fun h => by have : (j 0).val < k + 1 := h.1; omega)]

theorem row_lt (j : S8x256.Idx) : (j 0).val < k1_t1_loop.trips := by rw [trips8]; exact (j 0).isLt

/-- All eight rows stepped, each from its own slab and from what the row held. -/
def stepRows (h : Vec F S64x256x64 .f32) (x : Vec F S8x128x64 .f32) (a : Vec F S8x256 .f32) : Vec F S8x256 .f32 :=
  fun j => rowStep h (View.ld x (xSlab ⟨(j 0).val, row_lt j⟩)) (View.ld a (accRow ⟨(j 0).val, row_lt j⟩)) (ix2 (0 : Fin 1) (j 1))

theorem hz3 : (![0, 0, 0] : Fin 3 → Nat) = fun _ => 0 := funext fun a => by fin_cases a <;> rfl
theorem hz2' : (![0, 0] : Fin 2 → Nat) = fun _ => 0 := funext fun a => by fin_cases a <;> rfl

/-- After all the trips, over contents `a` of a whole accumulator buffer and input blocks `x0`, `x1`: every row stepped. -/
theorem read_pb_all (c : Dev nD) (i : grid1.Coords) (arg2 : Memref sig .tc .vmem S8x128x64 .f32) (harg2 : arg2.IsWhole) (arg3 : Memref sig .tc .vmem S64x256x64 .f32) (harg3 : arg3.IsWhole) (arg4 : Memref sig .tc .vmem S8x256 .f32) (harg4 : arg4.IsWhole) (arg5 : Memref sig .tc .vmem S8x256 .f32) (harg5 : arg5.IsWhole)
    (x0 : Vec F S8x128x64 .f32) (x1 : Vec F S64x256x64 .f32) (f₀ : BufTy.Contents (Elt F) arg5.view.ty) :
    arg5.view.read (Elt F) (arg5.view.writes (Elt F) f₀ (pb_k1_t1 (F := F) Variants.none c none i arg2 harg2 arg3 harg3 arg4 harg4 arg5 harg5 (View.readAt (Elt F) arg3.view (Rect.unit (s := S64x256x64) ![0, 0, 0] S64x256x64.size inb_S64x256x64_S64x256x64_0_0_0).toLoadRect (harg3.unread x1)) (harg2.unread x0) (f₀) k1_t1_loop.trips)) = stepRows x1 x0 (arg5.view.read (Elt F) f₀) := by
  rw [read_pb _ _ _ _ _ _ _ _ _ _ _ _ _ _ f₀ _ le_rfl]
  funext j
  unfold partialAcc stepRows
  rw [dif_pos ⟨row_lt j, row_lt j⟩]
  rw [View.readAt_eq_ld, View.readAt_eq_ld, View.readAt_eq_ld, harg3.read_unread, harg2.read_unread, View.ld_unit_zero (S := S64x256x64) hz3]

theorem sout1_B_eq (c : Dev nD) (i : grid1.Coords) (arg2 : Memref sig .tc .vmem S8x128x64 .f32) (harg2 : arg2.IsWhole) (arg3 : Memref sig .tc .vmem S64x256x64 .f32) (harg3 : arg3.IsWhole) (arg4 : Memref sig .tc .vmem S8x256 .f32) (harg4 : arg4.IsWhole) (arg5 : Memref sig .tc .vmem S8x256 .f32) (harg5 : arg5.IsWhole) (hc0 : ¬cond1_0 i) (hc1 : ¬cond1_1 i)
    (x0 : Vec F S8x128x64 .f32) (x1 : Vec F S64x256x64 .f32) (xs0 : Vec F S8x256 .f32) : sout1_B_0 c i arg2 harg2 arg3 harg3 arg4 harg4 arg5 harg5 hc0 hc1 x0 x1 xs0 = stepRows x1 x0 xs0 := by
  unfold sout1_B_0
  rw [← View.read_writes_of_cover arg5.view (harg5.unread xs0) VS1_0 VS1_0.junk _ (scover1_B_0 c i arg2 harg2 arg3 harg3 arg4 harg4 arg5 harg5 hc0 hc1 x0 x1 xs0)]
  have hL : (kernelRun1_B c i arg2 harg2 arg3 harg3 arg4 harg4 arg5 harg5 hc0 hc1 x0 x1 xs0).2.1 = pb_k1_t1 (F := F) Variants.none c none i arg2 harg2 arg3 harg3 arg4 harg4 arg5 harg5 (View.readAt (Elt F) arg3.view (Rect.unit (s := S64x256x64) ![0, 0, 0] S64x256x64.size inb_S64x256x64_S64x256x64_0_0_0).toLoadRect (harg3.unread x1)) (harg2.unread x0) (harg5.unread xs0) k1_t1_loop.trips := by unfold kernelRun1_B; rfl
  rw [hL, read_pb_all, harg5.read_unread]

theorem sout1_C_eq (c : Dev nD) (i : grid1.Coords) (arg2 : Memref sig .tc .vmem S8x128x64 .f32) (harg2 : arg2.IsWhole) (arg3 : Memref sig .tc .vmem S64x256x64 .f32) (harg3 : arg3.IsWhole) (arg4 : Memref sig .tc .vmem S8x256 .f32) (harg4 : arg4.IsWhole) (arg5 : Memref sig .tc .vmem S8x256 .f32) (harg5 : arg5.IsWhole) (hc0 : ¬cond1_0 i) (hc1 : cond1_1 i)
    (x0 : Vec F S8x128x64 .f32) (x1 : Vec F S64x256x64 .f32) (xs0 : Vec F S8x256 .f32) : sout1_C_0 c i arg2 harg2 arg3 harg3 arg4 harg4 arg5 harg5 hc0 hc1 x0 x1 xs0 = stepRows x1 x0 xs0 := by
  unfold sout1_C_0
  rw [← View.read_writes_of_cover arg5.view (harg5.unread xs0) VS1_0 VS1_0.junk _ (scover1_C_0 c i arg2 harg2 arg3 harg3 arg4 harg4 arg5 harg5 hc0 hc1 x0 x1 xs0)]
  have hL : (kernelRun1_C c i arg2 harg2 arg3 harg3 arg4 harg4 arg5 harg5 hc0 hc1 x0 x1 xs0).2.1 = pb_k1_t1 (F := F) Variants.none c none i arg2 harg2 arg3 harg3 arg4 harg4 arg5 harg5 (View.readAt (Elt F) arg3.view (Rect.unit (s := S64x256x64) ![0, 0, 0] S64x256x64.size inb_S64x256x64_S64x256x64_0_0_0).toLoadRect (harg3.unread x1)) (harg2.unread x0) (harg5.unread xs0) k1_t1_loop.trips := by unfold kernelRun1_C; rfl
  rw [hL, read_pb_all, harg5.read_unread]

/-- A whole-buffer store read back: the stored value. -/
theorem read_zero_fill {sg : RefSig} {κ : Kind} {sp : Space} (v : View sg κ sp S8x256 .f32) (f : v.ty.Contents (Elt F)) (w : S8x256.Idx → Elt F .f32) :
    v.read (Elt F) (v.writes (Elt F) f [⟨Rect.unit (s := S8x256) ![0, 0] S8x256.size inb_S8x256_S8x256_0_0, w⟩]) = w := by
  have hcov : ∀ y : S8x256.Idx, ∃ p ∈ ([⟨Rect.unit (s := S8x256) ![0, 0] S8x256.size inb_S8x256_S8x256_0_0, w⟩] : List (View.Piece (Elt F) S8x256 .f32)), y ∈ p.1.set :=
    fun y => View.cover_of_tiled [⟨Rect.unit (s := S8x256) ![0, 0] S8x256.size inb_S8x256_S8x256_0_0, w⟩] S8x256.size (by rfl) y
  rw [View.read_writes_eq_canon v f _ hcov, View.canon_unit_zero hz2']

/-- FIRST STEP of a tile: the accumulator ends at every row stepped from zero. -/
theorem sout1_A_eq (c : Dev nD) (i : grid1.Coords) (arg2 : Memref sig .tc .vmem S8x128x64 .f32) (harg2 : arg2.IsWhole) (arg3 : Memref sig .tc .vmem S64x256x64 .f32) (harg3 : arg3.IsWhole) (arg4 : Memref sig .tc .vmem S8x256 .f32) (harg4 : arg4.IsWhole) (arg5 : Memref sig .tc .vmem S8x256 .f32) (harg5 : arg5.IsWhole) (hc0 : cond1_0 i) (hc1 : ¬cond1_1 i)
    (x0 : Vec F S8x128x64 .f32) (x1 : Vec F S64x256x64 .f32) : sout1_A_0 c i arg2 harg2 arg3 harg3 arg4 harg4 arg5 harg5 hc0 hc1 x0 x1 = stepRows x1 x0 (k1_pay1 (F := F)) := by
  unfold sout1_A_0
  rw [← View.read_writes_of_cover arg5.view arg5.view.junk VS1_0 VS1_0.junk _ (scover1_A_0 c i arg2 harg2 arg3 harg3 arg4 harg4 arg5 harg5 hc0 hc1 x0 x1)]
  have hL : (kernelRun1_A c i arg2 harg2 arg3 harg3 arg4 harg4 arg5 harg5 hc0 hc1 x0 x1).2.1 = pb_k1_t1 (F := F) Variants.none c none i arg2 harg2 arg3 harg3 arg4 harg4 arg5 harg5 (View.readAt (Elt F) arg3.view (Rect.unit (s := S64x256x64) ![0, 0, 0] S64x256x64.size inb_S64x256x64_S64x256x64_0_0_0).toLoadRect (harg3.unread x1)) (harg2.unread x0) (arg5.view.writes (Elt F) arg5.view.junk [⟨Rect.unit (s := S8x256) ![0, 0] S8x256.size inb_S8x256_S8x256_0_0, k1_pay1 (F := F)⟩]) k1_t1_loop.trips ++ [⟨Rect.unit (s := S8x256) ![0, 0] S8x256.size inb_S8x256_S8x256_0_0, k1_pay1 (F := F)⟩] := by unfold kernelRun1_A; rfl
  rw [hL, View.writes_append, read_pb_all, read_zero_fill]

/-- LAST STEP of a tile: the output block ends at a copy of the accumulator, every row stepped. -/
theorem out1_C_eq (c : Dev nD) (i : grid1.Coords) (arg2 : Memref sig .tc .vmem S8x128x64 .f32) (harg2 : arg2.IsWhole) (arg3 : Memref sig .tc .vmem S64x256x64 .f32) (harg3 : arg3.IsWhole) (arg4 : Memref sig .tc .vmem S8x256 .f32) (harg4 : arg4.IsWhole) (arg5 : Memref sig .tc .vmem S8x256 .f32) (harg5 : arg5.IsWhole) (hc0 : ¬cond1_0 i) (hc1 : cond1_1 i)
    (x0 : Vec F S8x128x64 .f32) (x1 : Vec F S64x256x64 .f32) (xs0 : Vec F S8x256 .f32) : out1_C_2 c i arg2 harg2 arg3 harg3 arg4 harg4 arg5 harg5 hc0 hc1 x0 x1 xs0 = stepRows x1 x0 xs0 := by
  unfold out1_C_2
  have hL : (kernelRun1_C c i arg2 harg2 arg3 harg3 arg4 harg4 arg5 harg5 hc0 hc1 x0 x1 xs0).1 = [⟨Rect.unit (s := S8x256) ![0, 0] S8x256.size inb_S8x256_S8x256_0_0, View.readAt (Elt F) arg5.view (Rect.unit (s := S8x256) ![0, 0] S8x256.size inb_S8x256_S8x256_0_0).toLoadRect (arg5.view.writes (Elt F) (harg5.unread xs0) (pb_k1_t1 (F := F) Variants.none c none i arg2 harg2 arg3 harg3 arg4 harg4 arg5 harg5 (View.readAt (Elt F) arg3.view (Rect.unit (s := S64x256x64) ![0, 0, 0] S64x256x64.size inb_S64x256x64_S64x256x64_0_0_0).toLoadRect (harg3.unread x1)) (harg2.unread x0) (harg5.unread xs0) k1_t1_loop.trips))⟩] := by unfold kernelRun1_C; rfl
  rw [hL, read_zero_fill, View.readAt_eq_ld, read_pb_all, harg5.read_unread, View.ld_unit_zero (S := S8x256) hz2']

end Cert.KernelIdeal.Val

end
-- ==== Proof.PoolRow.lean ====
/-
  The second kernel's row step, read at a column.

  For one block of 128 positions the kernel forms the [128, 16384] block of scores (row s against every (n, o), element n
  of set o at column 256 · n + o), takes for each set o the maximum over the 64 elements as a running maximum over the
  64 groups of 256 columns — group 0, then groups 1–25, then 26–55, then 56–63, each new group on the right of the
  running value —, clips it at 0, sums down the 128 rows, and adds the result to a row of the accumulator. A running
  maximum over all 64 groups is the maximum of the 64 scores, whatever the nesting, so the step adds
  Σ s, max (max over n of score s o n) 0 to the accumulator at column o.
-/
import proofs.«111605_j15960098472410_2_alg».proof.Proof.PoolPay

noncomputable section

open scoped BigOperators

namespace Cert.Pool.Pay

open Cert.KernelIdeal Cert.KernelIdeal.Gen Idealize.ShloMosaic Idealize.ShloMosaic.ValueIdx

/-! ## A row of the score block read at a column given as a natural number -/

/-- Row s of a [128, 16384] block at column j, for j a natural number (the bottom element past the last column, a case
    no use below reaches): the form in which a column `256 · n + o` is an arithmetic expression in n. -/
def rd (V : FVec Ideal S128x16384 .f32) (s : Fin 128) (j : ℕ) : EReal :=
  if hj : j < 16384 then V (ix2 s ⟨j, hj⟩) else ⊥

/-- Column o of the n-th group of 256 columns: the score of element n for set o. -/
def col (V : FVec Ideal S128x16384 .f32) (s : Fin 128) (o : Fin 256) (n : ℕ) : EReal :=
  rd V s (n * 256 + o.val)

/-- A window of 256 columns starting at column `off`, read at (s, o), is the block at column `off + o`. -/
theorem slice_rd (off : ℕ) (V : FVec Ideal S128x16384 .f32) (h : S128x16384.Slices ![0, off] S128x256)
    (s : Fin 128) (o : Fin 256) :
    extractStridedSlice S128x256 ![0, off] V h (ix2 s o) = rd V s (off + o.val) := by
  rw [slice2_axis1_eq]
  unfold rd
  rw [dif_pos]

/-! ## The three stretches of the running maximum -/

/-- Groups 0–25: the running maximum started at group 0 and continued over groups 1–25. -/
theorem k1_pay5_apply (w : FVec Ideal S16384x64 .bf16) (x : Vec Ideal S1x128x64 .f32) (s : Fin 128) (o : Fin 256) :
    k1_pay5 (F := Ideal) w x (ix2 s o)
      = Cert.Pool.chainFrom (col (k1_pay4 w x) s o 0) (col (k1_pay4 w x) s o) 1 25 := by
  unfold k1_pay5
  simp only [maximumf_apply, slice_rd]
  rfl

/-- Groups 26–55: the running maximum continued from the value handed in. -/
theorem k1_pay6_apply (V : FVec Ideal S128x16384 .f32) (v : FVec Ideal S128x256 .f32) (s : Fin 128) (o : Fin 256) :
    k1_pay6 (F := Ideal) V v (ix2 s o) = Cert.Pool.chainFrom (v (ix2 s o)) (col V s o) 26 30 := by
  unfold k1_pay6
  simp only [maximumf_apply, slice_rd]
  rfl

/-- A sum down the 128 rows of a [128, 256] block, read at column o. -/
theorem lane_sum (src : FVec Ideal S128x256 .f32) (h : S128x256.Reduces [0] S256) (o : Fin 256) :
    multiReduction .add [0] S256 src 0x00000000#32 h (.inl rfl) rfl (ix1 o) = ∑ s : Fin 128, src (ix2 s o) :=
  (Ideal.multiReduction_add_single src 0x00000000#32 h (.inl rfl) rfl (ix1 o)).trans
    (Finset.sum_congr rfl fun s _ => congrArg src (funext fun a => Fin.ext (by
      match a with
      | ⟨0, _⟩ => rfl
      | ⟨1, _⟩ => rfl)))

/-- Groups 56–63, the clip at 0, the sum down the rows, and the accumulator row added: the stored row at column o. -/
theorem k1_pay3_apply (V : FVec Ideal S128x16384 .f32) (v : FVec Ideal S128x256 .f32) (a : Vec Ideal S1x256 .f32)
    (o : Fin 256) :
    k1_pay3 (F := Ideal) V v a (ix2 (0 : Fin 1) o)
      = a (ix2 (0 : Fin 1) o) + ∑ s : Fin 128, max (Cert.Pool.chainFrom (v (ix2 s o)) (col V s o) 56 8) 0 := by
  unfold k1_pay3
  refine (shapeCast_a_1a_apply _ _ 0 o).trans ?_
  refine congrArg₂ (· + ·) (shapeCast_1a_a_apply a _ o) ?_
  refine (lane_sum _ _ o).trans (Finset.sum_congr rfl fun s _ => ?_)
  simp only [maximumf_apply, slice_rd, broadcast_apply]
  exact congrArg₂ max rfl Ideal.ofBits_zero_f32

/-! ## The score block at a column -/

/-- Entry (s, 256 · n + o) of the score block: row s of the input block against row k ↦ h[n, o, k] of the hidden sets
    (the [64, 256, 64] array flattened to 16384 rows puts (n, o) at row 256 · n + o). -/
theorem k1_pay4_apply (h : Vec Ideal S64x256x64 .f32) (x : Vec Ideal S1x128x64 .f32) (s : Fin 128) (n : Fin 64)
    (o : Fin 256) :
    k1_pay4 (F := Ideal) (k1_pay2 h) x (ix2 s ⟨n.val * 256 + o.val, by omega⟩)
      = ∑ k : Fin 64, x (ix3 (0 : Fin 1) s k) * h (ix3 n o k) := by
  unfold k1_pay4
  simp only [matmul]
  refine (score_matmul_apply _ _ s _).trans (Finset.sum_congr rfl fun k _ => ?_)
  refine congrArg₂ (· * ·) (shapeCast_1ab_ab_apply x _ s k) ?_
  unfold k1_pay2
  simp only [shapeCast_self]
  exact shapeCast_apply h _ _ (ix3 n o k) (by
    rw [Shape.rowMajor_val_three, Shape.rowMajor_val_two]
    rfl)

/-! ## The row step -/

/-- THE ROW STEP at column o: to the accumulator row is added, over the block's 128 positions, the best of the 64
    scores of set o, clipped at 0. The 63 binary maxima are a running maximum over the 64 groups of columns, so their
    result is the maximum of the 64 scores. -/
theorem row_step (h : Vec Ideal S64x256x64 .f32) (x : Vec Ideal S1x128x64 .f32) (a : Vec Ideal S1x256 .f32) (o : Fin 256) :
    k1_pay3 (F := Ideal) (k1_pay4 (k1_pay2 h) x) (k1_pay6 (k1_pay4 (k1_pay2 h) x) (k1_pay5 (k1_pay2 h) x)) a
        (ix2 (0 : Fin 1) o)
      = a (ix2 (0 : Fin 1) o) + ∑ s : Fin 128, max (Finset.univ.sup' Finset.univ_nonempty fun n : Fin 64 =>
          ∑ k : Fin 64, x (ix3 (0 : Fin 1) s k) * h (ix3 n o k)) 0 := by
  rw [k1_pay3_apply]
  refine congrArg (_ + ·) (Finset.sum_congr rfl fun s _ => ?_)
  rw [k1_pay6_apply, k1_pay5_apply, Cert.Pool.chain64]
  refine congrArg (max · 0) (congrArg _ (funext fun n => ?_))
  unfold col rd
  rw [dif_pos (by have := n.isLt; have := o.isLt; omega)]
  exact k1_pay4_apply h x s n o

end Cert.Pool.Pay

end
-- ==== Proof.KiStep.lean ====
/-
  The second kernel's eight row steps, read at an entry.

  Row r of the accumulator is stepped from slab r of the block of projected rows (its 128 positions) and from what the
  row held: to entry (r, o) is added, over the slab's 128 positions, the best of the 64 scores of set o, clipped at 0.
  A slab and a row are cut out of their blocks at offsets (r, 0, 0) and (r, 0), so entry (0, s, k) of slab r is entry
  (r, s, k) of the block, and entry (0, o) of row r is entry (r, o) of the accumulator.
-/
import proofs.«111605_j15960098472410_2_alg».proof.Proof.KiLoop
import proofs.«111605_j15960098472410_2_alg».proof.Proof.PoolRow

set_option maxRecDepth 16384

noncomputable section

open scoped BigOperators

namespace Cert.KernelIdeal.Val

open Cert.KernelIdeal Cert.KernelIdeal.Gen Cert.KernelIdeal.Frm
open Idealize.ShloMosaic Idealize.ShloMosaic.TcCoe Idealize.ShloMosaic.ValueIdx
open Idealize.SL Idealize.SL.Sem

/-- Entry (0, o) of row r of the accumulator is its entry (r, o). -/
theorem accRow_apply (a : Vec Ideal S8x256 .f32) (r : Fin 8) (o : Fin 256) (hk : r.val < k1_t1_loop.trips) :
    View.ld a (accRow ⟨r.val, hk⟩) (ix2 (0 : Fin 1) o) = a (ix2 r o) :=
  congrArg a (funext fun ax => Fin.ext (by
    match ax with
    | ⟨0, _⟩ =>
      show (k1_off2 ⟨r.val, hk⟩) 0 + 1 * 0 = r.val
      rw [k1_off2_eq]; show r.val + 1 * 0 = r.val; omega
    | ⟨1, _⟩ =>
      show (k1_off2 ⟨r.val, hk⟩) 1 + 1 * o.val = o.val
      rw [k1_off2_eq]; show 0 + 1 * o.val = o.val; omega))

/-- Entry (0, s, k) of slab r of the block of projected rows is its entry (r, s, k). -/
theorem xSlab_apply (x : Vec Ideal S8x128x64 .f32) (r : Fin 8) (s : Fin 128) (k : Fin 64) (hk : r.val < k1_t1_loop.trips) :
    View.ld x (xSlab ⟨r.val, hk⟩) (ix3 (0 : Fin 1) s k) = x (ix3 r s k) :=
  congrArg x (funext fun ax => Fin.ext (by
    match ax with
    | ⟨0, _⟩ =>
      show (k1_off1 ⟨r.val, hk⟩) 0 + 1 * 0 = r.val
      rw [k1_off1_eq]; show r.val + 1 * 0 = r.val; omega
    | ⟨1, _⟩ =>
      show (k1_off1 ⟨r.val, hk⟩) 1 + 1 * s.val = s.val
      rw [k1_off1_eq]; show 0 + 1 * s.val = s.val; omega
    | ⟨2, _⟩ =>
      show (k1_off1 ⟨r.val, hk⟩) 2 + 1 * k.val = k.val
      rw [k1_off1_eq]; show 0 + 1 * k.val = k.val; omega))

/-- ALL EIGHT ROWS STEPPED, at entry (r, o): what the row held plus, over slab r's 128 positions, the best of the 64
    scores of set o, clipped at 0. -/
theorem stepRows_apply (h : Vec Ideal S64x256x64 .f32) (x : Vec Ideal S8x128x64 .f32) (a : Vec Ideal S8x256 .f32)
    (r : Fin 8) (o : Fin 256) :
    stepRows (F := Ideal) h x a (ix2 r o)
      = a (ix2 r o) + ∑ s : Fin 128, max (Finset.univ.sup' Finset.univ_nonempty fun n : Fin 64 =>
          ∑ k : Fin 64, x (ix3 r s k) * h (ix3 n o k)) 0 := by
  unfold stepRows rowStep
  refine (Cert.Pool.Pay.row_step h _ _ o).trans ?_
  refine congrArg₂ (· + ·) (accRow_apply a r o _) (Finset.sum_congr rfl fun s _ => ?_)
  refine congrArg (max · 0) (congrArg (Finset.univ.sup' Finset.univ_nonempty) (funext fun n => ?_))
  exact Finset.sum_congr rfl fun k _ => congrArg (· * _) (xSlab_apply x r s k _)

end Cert.KernelIdeal.Val

end
-- ==== Proof.KiBlk1.lean ====
/-
  The blocks the second launch's grid points read.

  The second launch runs over a 2 × 8 grid; point t has coordinates (t / 8, t % 8). Its first window cuts the projected
  input [16, 1024, 64] into blocks of 8 batch entries by 128 positions: point t reads batch entries 8 · (t / 8) + r and
  positions 128 · (t % 8) + s. Its second window is the whole array of hidden sets [64, 256, 64] at every point. A block's
  coordinate is the window's index at the point times the block's extent, plus the coordinate inside the block.
-/
import proofs.«111605_j15960098472410_2_alg».proof.Proof.KiR1Runs
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx
open Idealize.SL Idealize.SL.Sem

variable (V : (c : Dev nD) → (b : Ref sig .tc) → Buf (Elt Ideal) ((c : Thread nD τ).loc b))

/-- The two input windows' index maps at every grid point: (t / 8, t % 8, 0) for the projected input, (0, 0, 0) for the
    hidden sets. -/
theorem idx_facts1 : ∀ t : Fin cfg1.N, win1_0.index t (0 : Fin 3) = t.val / 8 ∧ win1_0.index t (1 : Fin 3) = t.val % 8
    ∧ win1_0.index t (2 : Fin 3) = 0
    ∧ win1_1.index t (0 : Fin 3) = 0 ∧ win1_1.index t (1 : Fin 3) = 0 ∧ win1_1.index t (2 : Fin 3) = 0 :=
  (by decide +kernel : ∀ t : Fin grid1.N, _)

/-- A grid point of the second launch is below 16. -/
theorem pt_lt (t : Fin cfg1.N) : t.val < 16 := lt_of_lt_of_eq t.isLt N_1

/-- The block of projected rows at point t: batch entry 8 · (t / 8) + r, position 128 · (t % 8) + s. -/
theorem blk_rows (c : Dev nD) (t : Fin cfg1.N) (r : Fin 8) (s : Fin 128) (k : Fin 64) :
    iblk1 V c 0 t (ix3 r s k)
      = V c main_v3 (ix3 ⟨t.val / 8 * 8 + r.val, by have := pt_lt t; omega⟩
          ⟨t.val % 8 * 128 + s.val, by omega⟩ k) := by
  obtain ⟨e0, e1, e2, -, -, -⟩ := idx_facts1 t
  show V c main_v3 (((cfg1.win 0).blk t).view.emb (ix3 r s k)) = _
  refine congrArg (V c main_v3) ?_
  funext a; apply Fin.ext
  match a with
  | ⟨0, _⟩ => show win1_0.index t (0 : Fin 3) * 8 + 1 * r.val = t.val / 8 * 8 + r.val; omega
  | ⟨1, _⟩ => show win1_0.index t (1 : Fin 3) * 128 + 1 * s.val = t.val % 8 * 128 + s.val; omega
  | ⟨2, _⟩ => show win1_0.index t (2 : Fin 3) * 64 + 1 * k.val = k.val; omega

/-- The hidden sets at point t: the whole array. -/
theorem blk_sets (c : Dev nD) (t : Fin cfg1.N) (n : Fin 64) (o : Fin 256) (k : Fin 64) :
    iblk1 V c 1 t (ix3 n o k) = V c main_v4 (ix3 n o k) := by
  obtain ⟨-, -, -, e0, e1, e2⟩ := idx_facts1 t
  show V c main_v4 (((cfg1.win 1).blk t).view.emb (ix3 n o k)) = _
  refine congrArg (V c main_v4) ?_
  funext a; apply Fin.ext
  match a with
  | ⟨0, _⟩ => show win1_1.index t (0 : Fin 3) * 64 + 1 * n.val = n.val; omega
  | ⟨1, _⟩ => show win1_1.index t (1 : Fin 3) * 256 + 1 * o.val = o.val; omega
  | ⟨2, _⟩ => show win1_1.index t (2 : Fin 3) * 64 + 1 * k.val = k.val; omega

end Cert.KernelIdeal.Val

end
-- ==== Proof.PoolGlue.lean ====
/-
  The pooled value as eight blocks of 128 positions, and as a running sum over the blocks.

  The sum over the 1024 positions in the pooled value is regrouped into eight consecutive blocks of 128 (addition on the
  extended reals is commutative and associative: no finiteness is needed). A computation that starts from 0 and adds one
  block's contribution at a time reaches, after the eighth block, the pooled value.
-/
import proofs.«111605_j15960098472410_2_alg».proof.Proof.PoolSpec

noncomputable section

open scoped BigOperators

namespace Cert.Pool

variable (X : Fin 16 → Fin 1024 → Fin 300 → EReal) (W : Fin 64 → Fin 300 → EReal) (B : Fin 64 → EReal)
  (H : Fin 256 → Fin 64 → Fin 64 → EReal) (b : Fin 16) (o : Fin 256)

/-- The pooled value as the sum over eight blocks of the sums over each block's 128 positions. -/
theorem pooled_blocks :
    pooled X W B H b o
      = ∑ q : Fin 8, ∑ r : Fin 128, max (Finset.univ.sup' Finset.univ_nonempty fun n : Fin 64 =>
          score X W B H b ⟨q.val * 128 + r.val, by omega⟩ o n) 0 :=
  sum_split _

/-- Block q's contribution: over its 128 positions, the best score of set o, clipped at 0 (and 0 for q past the
    eighth block, a case no use below reaches). -/
def blockSum (q : ℕ) : EReal :=
  if hq : q < 8 then
    ∑ r : Fin 128, max (Finset.univ.sup' Finset.univ_nonempty fun n : Fin 64 =>
      score X W B H b ⟨q * 128 + r.val, by omega⟩ o n) 0
  else 0

/-- Block q's contribution, for q one of the eight blocks. -/
theorem blockSum_fin (q : Fin 8) :
    blockSum X W B H b o q.val
      = ∑ r : Fin 128, max (Finset.univ.sup' Finset.univ_nonempty fun n : Fin 64 =>
          score X W B H b ⟨q.val * 128 + r.val, by omega⟩ o n) 0 :=
  dif_pos q.isLt

/-- The running sum: 0, then one block's contribution added at a time. -/
def acc : ℕ → EReal
  | 0 => 0
  | q + 1 => acc q + blockSum X W B H b o q

theorem acc_zero : acc X W B H b o 0 = 0 := rfl

/-- One step of the running sum, at one of the eight blocks. -/
theorem acc_succ (q : Fin 8) :
    acc X W B H b o (q.val + 1)
      = acc X W B H b o q.val + ∑ r : Fin 128, max (Finset.univ.sup' Finset.univ_nonempty fun n : Fin 64 =>
          score X W B H b ⟨q.val * 128 + r.val, by omega⟩ o n) 0 :=
  congrArg (acc X W B H b o q.val + ·) (blockSum_fin X W B H b o q)

/-- The running sum after j blocks is the sum of the first j contributions. -/
theorem acc_eq_sum (j : ℕ) : acc X W B H b o j = ∑ q ∈ Finset.range j, blockSum X W B H b o q := by
  induction j with
  | zero => rfl
  | succ j ih =>
    show acc X W B H b o j + blockSum X W B H b o j = _
    rw [ih, Finset.sum_range_succ]

/-- AFTER THE EIGHTH BLOCK the running sum is the pooled value. -/
theorem acc_eight : acc X W B H b o 8 = pooled X W B H b o := by
  rw [acc_eq_sum, Finset.sum_range, pooled_blocks]
  exact Finset.sum_congr rfl fun q _ => blockSum_fin X W B H b o q

end Cert.Pool

end
-- ==== Proof.KiVal1.lean ====
/-
  What the second kernel launch leaves in the result array. After grid point n (batch tile n / 8, step n % 8) entry
  (r, o) of the accumulator is the specification's running sum for batch entry n / 8 * 8 + r over the blocks
  0 … n % 8 of 128 set elements (induction on n: a tile's first step starts from zero, every other step adds one
  block sum to what the step before left). A tile's last step copies the accumulator into the output block, so the
  block written back holds the tile's eight rows of the pooled sums; the two tiles' blocks tile the result array.
-/
import proofs.«111605_j15960098472410_2_alg».proof.Proof.KiLoop
import proofs.«111605_j15960098472410_2_alg».proof.Proof.KiStep
import proofs.«111605_j15960098472410_2_alg».proof.Proof.KiBlk1
import proofs.«111605_j15960098472410_2_alg».proof.Proof.PoolGlue
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))
variable (X : Fin 16 → Fin 1024 → Fin 300 → EReal) (W : Fin 64 → Fin 300 → EReal) (B : Fin 64 → EReal) (H : Fin 256 → Fin 64 → Fin 64 → EReal)

/-- One step's contribution to entry (r, o) of the accumulator, at grid point `n`: the sum over the 128 rows of the step's
    slab of the clipped best match, which is the specification's block sum for batch entry n / 8 * 8 + r and block n % 8. -/
theorem step_term (c : Dev nD)
    (hX : ∀ b s k, V c main_v3 (ix3 b s k) = Cert.Pool.xc X W B b s k) (hH : ∀ n o k, V c main_v4 (ix3 n o k) = H o n k)
    (t : Fin cfg1.N) (r : Fin 8) (o : Fin 256) (hb : t.val / 8 * 8 + r.val < 16) (hq : t.val % 8 < 8)
    (x0 : Vec Ideal S8x128x64 .f32) (x1 : Vec Ideal S64x256x64 .f32) (hx0 : x0 = iblk1 V c 0 t) (hx1 : x1 = iblk1 V c 1 t) :
    (∑ s : Fin 128, max (Finset.univ.sup' Finset.univ_nonempty fun n : Fin 64 => ∑ k : Fin 64, x0 (ix3 r s k) * x1 (ix3 n o k)) 0)
      = ∑ s : Fin 128, max (Finset.univ.sup' Finset.univ_nonempty fun n : Fin 64 => Cert.Pool.score X W B H ⟨t.val / 8 * 8 + r.val, hb⟩ ⟨t.val % 8 * 128 + s.val, by omega⟩ o n) 0 := by
  subst hx0 hx1
  refine Finset.sum_congr rfl fun s _ => ?_
  refine congrArg (max · 0) ?_
  refine congrArg (Finset.univ.sup' Finset.univ_nonempty) (funext fun n => ?_)
  unfold Cert.Pool.score
  refine Finset.sum_congr rfl fun k _ => ?_
  rw [blk_rows V c t r s k, blk_sets V c t n o k, hX, hH]

/-- THE ACCUMULATOR after grid point `n`: entry (r, o) is the specification's running sum, for batch entry n / 8 * 8 + r, over the
    blocks up to n % 8. -/
theorem acc_at (c : Dev nD)
    (hX : ∀ b s k, V c main_v3 (ix3 b s k) = Cert.Pool.xc X W B b s k) (hH : ∀ n o k, V c main_v4 (ix3 n o k) = H o n k) :
    ∀ (n : ℕ) (hn : n < cfg1.N) (r : Fin 8) (o : Fin 256) (hb : n / 8 * 8 + r.val < 16),
      (outsAt1 V c n hn).2 (ix2 r o) = Cert.Pool.acc X W B H ⟨n / 8 * 8 + r.val, hb⟩ o (n % 8 + 1)
  | n, hn, r, o, hb => by
    have hN : cfg1.N = 16 := N_1
    by_cases h0 : n % 8 = 0
    · have h1 : ¬n % 8 = 7 := by omega
      have e := outsAt1_A V c ⟨n, hn⟩ h0 h1
      rw [show outsAt1 V c n hn = outsAt1 V c (⟨n, hn⟩ : Fin cfg1.N).val (⟨n, hn⟩ : Fin cfg1.N).isLt from rfl, e]
      show sout1_A_0 c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) scM1_0 (Memref.isWhole_whole _) _ _ (iblk1 V c 0 ⟨n, hn⟩) (iblk1 V c 1 ⟨n, hn⟩) (ix2 r o) = _
      have hst := step_term V X W B H c hX hH ⟨n, hn⟩ r o hb (by omega) (iblk1 V c 0 ⟨n, hn⟩) (iblk1 V c 1 ⟨n, hn⟩) (by rfl) (by rfl)
      rw [sout1_A_eq, stepRows_apply, Cert.Pool.Pay.k1_pay1_apply, hst]
      have hq : (⟨n % 8, by omega⟩ : Fin 8) = ⟨0, by omega⟩ := Fin.ext h0
      rw [show n % 8 + 1 = (⟨n % 8, by omega⟩ : Fin 8).val + 1 from rfl, Cert.Pool.acc_succ]
      have hz : Cert.Pool.acc X W B H ⟨n / 8 * 8 + r.val, hb⟩ o (n % 8) = 0 := by rw [h0]; exact Cert.Pool.acc_zero X W B H _ o
      show _ = Cert.Pool.acc X W B H ⟨n / 8 * 8 + r.val, hb⟩ o (n % 8) + _
      rw [hz]
    · have hpos : n ≠ 0 := by intro h; rw [h] at h0; exact h0 rfl
      have ih := acc_at c hX hH (n - 1) (by omega) r o (by omega)
      have hprev : (n - 1) / 8 = n / 8 := by omega
      have hprevq : (n - 1) % 8 + 1 = n % 8 := by omega
      have hstep : ∀ prev : Vec Ideal S8x256 .f32, prev = (outsAt1 V c (n - 1) (by omega)).2 →
          stepRows (F := Ideal) (iblk1 V c 1 ⟨n, hn⟩) (iblk1 V c 0 ⟨n, hn⟩) prev (ix2 r o) = Cert.Pool.acc X W B H ⟨n / 8 * 8 + r.val, hb⟩ o (n % 8 + 1) := by
        intro prev hp
        have hst := step_term V X W B H c hX hH ⟨n, hn⟩ r o hb (by omega) (iblk1 V c 0 ⟨n, hn⟩) (iblk1 V c 1 ⟨n, hn⟩) (by rfl) (by rfl)
        rw [stepRows_apply, hst, hp, ih]
        rw [show n % 8 + 1 = (⟨n % 8, by omega⟩ : Fin 8).val + 1 from rfl, Cert.Pool.acc_succ]
        have hacc : Cert.Pool.acc X W B H ⟨(n - 1) / 8 * 8 + r.val, by omega⟩ o ((n - 1) % 8 + 1) = Cert.Pool.acc X W B H ⟨n / 8 * 8 + r.val, hb⟩ o (n % 8) := by
          rw [hprevq]; exact congrArg (fun b => Cert.Pool.acc X W B H b o (n % 8)) (Fin.ext (by show (n - 1) / 8 * 8 + r.val = n / 8 * 8 + r.val; omega))
        rw [hacc]
      by_cases h1 : n % 8 = 7
      · have e := outsAt1_C V c ⟨n, hn⟩ h0 h1
        rw [show outsAt1 V c n hn = outsAt1 V c (⟨n, hn⟩ : Fin cfg1.N).val (⟨n, hn⟩ : Fin cfg1.N).isLt from rfl, e]
        show sout1_C_0 c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) scM1_0 (Memref.isWhole_whole _) _ _ (iblk1 V c 0 ⟨n, hn⟩) (iblk1 V c 1 ⟨n, hn⟩) _ (ix2 r o) = _
        rw [sout1_C_eq]
        exact hstep _ rfl
      · have e := outsAt1_B V c ⟨n, hn⟩ h0 h1
        rw [show outsAt1 V c n hn = outsAt1 V c (⟨n, hn⟩ : Fin cfg1.N).val (⟨n, hn⟩ : Fin cfg1.N).isLt from rfl, e]
        show sout1_B_0 c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) scM1_0 (Memref.isWhole_whole _) _ _ (iblk1 V c 0 ⟨n, hn⟩) (iblk1 V c 1 ⟨n, hn⟩) _ (ix2 r o) = _
        rw [sout1_B_eq]
        exact hstep _ rfl
  termination_by n => n

/-- The result array of the specification, index by index. -/
def poolArr : S16x256.Idx → EReal := fun j => Cert.Pool.pooled X W B H (j 0) (j 1)

theorem idx_facts12 : ∀ t : Fin cfg1.N, win1_2.index t (0 : Fin 2) = t.val / 8 ∧ win1_2.index t (1 : Fin 2) = 0 :=
  (by decide +kernel : ∀ t : Fin grid1.N, _)

/-- WHAT A TILE'S LAST STEP WRITES BACK is the tile's eight rows of the specification's result. -/
theorem flushed1 (c : Dev nD)
    (hX : ∀ b s k, V c main_v3 (ix3 b s k) = Cert.Pool.xc X W B b s k) (hH : ∀ n o k, V c main_v4 (ix3 n o k) = H o n k)
    (t : Fin cfg1.N) (hf : (cfg1.win 2).flush t = true) :
    (dat1 V c).flushed 2 t = ((cfg1.win 2).blk t).view.read (Elt Ideal) (poolArr X W B H) := by
  have hN : t.val < 16 := lt_of_lt_of_eq t.isLt (show cfg1.N = 16 from N_1)
  have h7 : t.val % 8 = 7 := (flush1_2 t).mp hf
  have h0 : ¬t.val % 8 = 0 := by omega
  show (cfg1.win 2).cut (grid1.coords t) ((dat1 V c).after 2 t) = _
  rw [after1_2]
  have hsame : (outsAt1 V c t.val t.isLt).1 = (outsAt1 V c t.val t.isLt).2 := by
    rw [outsAt1_C V c t h0 h7]
    dsimp only
    rw [out1_C_eq, sout1_C_eq]
  rw [hsame]
  funext j
  obtain ⟨r, o, rfl⟩ : ∃ (r : Fin 8) (o : Fin 256), j = ix2 r o := ⟨j 0, j 1, eq_ix2 j⟩
  have hacc := acc_at V X W B H c hX hH t.val t.isLt r o (by omega)
  refine Eq.trans (b := (outsAt1 V c t.val t.isLt).2 (ix2 r o)) rfl (hacc.trans ?_)
  rw [h7, Cert.Pool.acc_eight]
  obtain ⟨e0, e1⟩ := idx_facts12 t
  show Cert.Pool.pooled X W B H _ o = poolArr X W B H (((cfg1.win 2).blk t).view.emb (ix2 r o))
  unfold poolArr
  refine congrArg₂ (Cert.Pool.pooled X W B H) (Fin.ext ?_) (Fin.ext ?_)
  · show t.val / 8 * 8 + r.val = win1_2.index t (0 : Fin 2) * 8 + 1 * r.val; omega
  · show o.val = win1_2.index t (1 : Fin 2) * 256 + 1 * o.val; omega

theorem mem_blk1 (t : Fin cfg1.N) (i : S16x256.Idx) :
    i ∈ ((cfg1.win 2).blk t).view.set ↔ ∀ a : Fin 2, win1_2.index t a * S8x256.size a ≤ (i a).val ∧ (i a).val < win1_2.index t a * S8x256.size a + S8x256.size a := by
  show i ∈ ((View.whole main_v5).slice (win1_2.rect t)).set ↔ _
  rw [View.set_slice_whole, Rect.mem_set_unit]
  exact Iff.rfl

/-- The two tiles' blocks, written back at each tile's last step, tile the result array. -/
theorem cover1 (i : S16x256.Idx) : ∃ t : Fin cfg1.N, (cfg1.win 2).flush t = true ∧ i ∈ ((cfg1.win 2).blk t).view.set := by
  have hi0 : (i 0).val < 16 := (i 0).isLt
  have hi1 : (i 1).val < 256 := (i 1).isLt
  have hN : cfg1.N = 16 := N_1
  have ht : (i 0).val / 8 * 8 + 7 < cfg1.N := by rw [hN]; omega
  refine ⟨⟨(i 0).val / 8 * 8 + 7, ht⟩, (flush1_2 _).mpr (by show ((i 0).val / 8 * 8 + 7) % 8 = 7; omega), ?_⟩
  rw [mem_blk1]
  obtain ⟨e0, e1⟩ := idx_facts12 ⟨(i 0).val / 8 * 8 + 7, ht⟩
  intro a
  match a with
  | ⟨0, _⟩ => show win1_2.index _ (0 : Fin 2) * 8 ≤ (i 0).val ∧ (i 0).val < win1_2.index _ (0 : Fin 2) * 8 + 8; rw [e0]; show ((i 0).val / 8 * 8 + 7) / 8 * 8 ≤ (i 0).val ∧ (i 0).val < ((i 0).val / 8 * 8 + 7) / 8 * 8 + 8; omega
  | ⟨1, _⟩ => show win1_2.index _ (1 : Fin 2) * 256 ≤ (i 1).val ∧ (i 1).val < win1_2.index _ (1 : Fin 2) * 256 + 256; rw [e1]; omega

/-- THE RESULT ARRAY after the second launch is the specification's. -/
theorem final1 (c : Dev nD)
    (hX : ∀ b s k, V c main_v3 (ix3 b s k) = Cert.Pool.xc X W B b s k) (hH : ∀ n o k, V c main_v4 (ix3 n o k) = H o n k) :
    (dat1 V c).arrAt 2 cfg1.N = poolArr X W B H :=
  (dat1 V c).arrAt_eq_of_cover 2 (poolArr X W B H) (fun t hf => flushed1 V X W B H c hX hH t hf) cover1

end Cert.KernelIdeal.Val

end
-- ==== Proof.KiHost.lean ====
/-
  What the host operations put in the arrays the two kernel launches read.

  Before the first launch two reshapes run: the bias [64] viewed as one row [1, 64], and the input [16, 1024, 300] viewed
  as 16384 rows of 300 (row-major: row r is batch entry r / 1024 at position r % 1024). Between the launches two more: the
  first launch's result [16384, 64] viewed back as [16, 1024, 64] (entry (b, s) is row 1024 · b + s), and the hidden sets
  [256, 64, 64] with their first two axes exchanged, [64, 256, 64] (entry (n, o, k) is the hidden sets' (o, n, k)). An
  argument array that no operation and no launch writes still holds what it held at the start.
-/
import proofs.«111605_j15960098472410_2_alg».proof.Proof.KiRun
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Val

open Cert.KernelIdeal Cert.KernelIdeal.Gen Cert.KernelIdeal.Frm
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- The input as 16384 rows: row r is batch entry r / 1024 at position r % 1024. -/
theorem rows_apply (r : Fin 16384) (d : Fin 300) :
    Frm.V1 (F := Ideal) m ρ c main_v1 (ix2 r d)
      = m ((c : Thread nD τ).loc main_arg0) (ix3 ⟨r.val / 1024, by omega⟩ ⟨r.val % 1024, by omega⟩ d) := by
  have e : (Frm.V1 (F := Ideal) m ρ c main_v1 : S16384x300.Idx → EReal)
      = shapeCast S16384x300 (m ((c : Thread nD τ).loc main_arg0)) shapeCasts_S16x1024x300_S16384x300 := by
    dsimp only [Frm.V1, Frm.W1, hostOps0]; after_results <;> rfl
  refine (congrFun e _).trans (shapeCast_apply _ _ _ _ ?_)
  show (S16x1024x300.rowMajor (ix3 ⟨r.val / 1024, by omega⟩ ⟨r.val % 1024, by omega⟩ d)).val
    = (S16384x300.rowMajor (ix2 r d)).val
  rw [Shape.rowMajor_val_three, Shape.rowMajor_val_two]
  show (r.val / 1024 * 1024 + r.val % 1024) * 300 + d.val = r.val * 300 + d.val
  omega

/-- The bias as one row. -/
theorem bias_apply (k : Fin 64) :
    Frm.V1 (F := Ideal) m ρ c main_v0 (ix2 (0 : Fin 1) k) = m ((c : Thread nD τ).loc main_arg2) (ix1 k) := by
  have e : (Frm.V1 (F := Ideal) m ρ c main_v0 : S1x64.Idx → EReal)
      = shapeCast S1x64 (m ((c : Thread nD τ).loc main_arg2)) shapeCasts_S64_S1x64 := by
    dsimp only [Frm.V1, Frm.W1, hostOps0]; after_results <;> rfl
  exact (congrFun e _).trans (shapeCast_a_1a_apply _ _ 0 k)

/-- The weights are not written before the first launch. -/
theorem weights_eq : Frm.V1 (F := Ideal) m ρ c main_arg1 = m ((c : Thread nD τ).loc main_arg1) := by
  dsimp only [Frm.V1, Frm.W1, hostOps0]; after_results <;> rfl

/-- The first launch's result viewed as [16, 1024, 64]: entry (b, s) is row 1024 · b + s. -/
theorem proj_apply (b : Fin 16) (s : Fin 1024) (k : Fin 64) :
    Frm.V3 (F := Ideal) m ρ c main_v3 (ix3 b s k)
      = (dat0 (Frm.V1 m ρ) c).arrAt 3 cfg0.N (ix2 ⟨b.val * 1024 + s.val, by omega⟩ k) := by
  have e : (Frm.V3 (F := Ideal) m ρ c main_v3 : S16x1024x64.Idx → EReal)
      = shapeCast S16x1024x64 (Frm.W2 m ρ c (Proc.devRef .tc main_v2)) shapeCasts_S16384x64_S16x1024x64 := by
    dsimp only [Frm.V3, Frm.W3, hostOps1]; after_results <;> rfl
  refine (congrFun e _).trans ((shapeCast_apply _ _ _ (ix2 ⟨b.val * 1024 + s.val, by omega⟩ k) ?_).trans
    (congrFun (Frm.W2_arr m ρ c 3) _))
  show (S16384x64.rowMajor (ix2 ⟨b.val * 1024 + s.val, by omega⟩ k)).val = (S16x1024x64.rowMajor (ix3 b s k)).val
  rw [Shape.rowMajor_val_three, Shape.rowMajor_val_two]
  rfl

/-- The hidden sets with their first two axes exchanged: entry (n, o, k) is the hidden sets' (o, n, k). -/
theorem sets_apply (n : Fin 64) (o : Fin 256) (k : Fin 64) :
    Frm.V3 (F := Ideal) m ρ c main_v4 (ix3 n o k) = m ((c : Thread nD τ).loc main_arg3) (ix3 o n k) := by
  have e : (Frm.V3 (F := Ideal) m ρ c main_v4 : S64x256x64.Idx → EReal)
      = transpose S64x256x64 [1, 0, 2] (Frm.W2 m ρ c (Proc.devRef .tc main_arg3)) transposes_S256x64x64_S64x256x64_1_0_2 := by
    dsimp only [Frm.V3, Frm.W3, hostOps1]; after_results <;> rfl
  have e3 : Frm.W2 m ρ c (Proc.devRef .tc main_arg3) = m ((c : Thread nD τ).loc main_arg3) :=
    calc Frm.W2 m ρ c (Proc.devRef .tc main_arg3)
      _ = Frm.W1 m ρ c (Proc.devRef .tc main_arg3) := Frm.W2_of_ne m ρ c main_arg3 (by decide)
      _ = m ((c : Thread nD τ).loc main_arg3) := by
        dsimp only [Frm.W1, hostOps0]; after_results <;> rfl
  rw [e3] at e
  refine (congrFun e _).trans (transpose_apply _ _ _ _ (ix3 o n k) fun a => ?_)
  match a with
  | ⟨0, _⟩ => rfl
  | ⟨1, _⟩ => rfl
  | ⟨2, _⟩ => rfl

end Cert.KernelIdeal.Val

end
-- ==== Proof.KiBridge.lean ====
/-
  The two programs compute one function. The idealized kernel's result array, read off its run, is the
  specification's result of the four argument arrays: the first launch leaves the compressed rows (the
  specification's xc), the transpose leaves the hidden sets with their first two axes exchanged, and the second
  launch then leaves the pooled sums.
-/
import proofs.«111605_j15960098472410_2_alg».proof.Proof.KiVal0
import proofs.«111605_j15960098472410_2_alg».proof.Proof.KiVal1
import proofs.«111605_j15960098472410_2_alg».proof.Proof.KiHost

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg) (c : Dev nD)

/-- The four argument arrays as functions of literal indices. -/
def Xof : Fin 16 → Fin 1024 → Fin 300 → EReal := fun b s d => m ((c : Thread nD τ).loc main_arg0) (ix3 b s d)
def Wof : Fin 64 → Fin 300 → EReal := fun k d => m ((c : Thread nD τ).loc main_arg1) (ix2 k d)
def Bof : Fin 64 → EReal := fun k => m ((c : Thread nD τ).loc main_arg2) (ix1 k)
def Hof : Fin 256 → Fin 64 → Fin 64 → EReal := fun o n k => m ((c : Thread nD τ).loc main_arg3) (ix3 o n k)

/-- The compressed array's defining formula at row `r`, column `k`. -/
theorem xcArr_apply (X1 : S16384x300.Idx → EReal) (Wm : S64x300.Idx → EReal) (B0 : S1x64.Idx → EReal) (r : Fin 16384) (k : Fin 64) :
    xcArr X1 Wm B0 (ix2 r k) = (∑ d : Fin 300, X1 (ix2 r d) * Wm (ix2 k d)) + B0 (ix2 (0 : Fin 1) k) := rfl

/-- The array the second launch reads its rows from holds the specification's compressed rows. -/
theorem rows_are_xc (b : Fin 16) (s : Fin 1024) (k : Fin 64) :
    Frm.V3 m ρ c main_v3 (ix3 b s k) = Cert.Pool.xc (Xof m c) (Wof m c) (Bof m c) b s k := by
  rw [proj_apply m ρ c b s k, final0 (Frm.V1 m ρ) c, xcArr_apply]
  unfold Cert.Pool.xc Xof Wof Bof
  rw [bias_apply m ρ c k, weights_eq m ρ c]
  refine congrArg (· + _) (Finset.sum_congr rfl fun d _ => ?_)
  rw [rows_apply m ρ c ⟨b.val * 1024 + s.val, by omega⟩ d]
  have hb : (⟨(b.val * 1024 + s.val) / 1024, by omega⟩ : Fin 16) = b := Fin.ext (by show (b.val * 1024 + s.val) / 1024 = b.val; omega)
  have hs : (⟨(b.val * 1024 + s.val) % 1024, by omega⟩ : Fin 1024) = s := Fin.ext (by show (b.val * 1024 + s.val) % 1024 = s.val; omega)
  rw [hb, hs]

/-- THE RESULT ARRAY of the idealized kernel's run is the specification's, of the argument arrays. -/
theorem result : (dat1 (Frm.V3 m ρ) c).arrAt 2 cfg1.N = poolArr (Xof m c) (Wof m c) (Bof m c) (Hof m c) :=
  final1 (Frm.V3 m ρ) (Xof m c) (Wof m c) (Bof m c) (Hof m c) c (rows_are_xc m ρ c) (fun n o k => sets_apply m ρ c n o k)

end Cert.KernelIdeal.Val

end
-- ==== Proof.PoolRef.lean ====
/-
  The reference's result, read at an index, is the pooled value of its four arguments.

  The reference computes, for every (b, s, o, n), the score of element n of set o; clips each at 0; folds `max` from
  the bottom element over n; and sums over s starting from 0. Read at (b, o): the leading 0 is absorbed, and at each
  position s the fold over n of the clipped scores is the maximum of the 64 scores, clipped (clipping at 0 commutes
  with a maximum of a nonempty family). No finiteness is used: only that `max` and `+` on the extended reals are
  commutative and associative.
-/
import proofs.«111605_j15960098472410_2_alg».proof.Proof.PoolSpec
import proofs.«111605_j15960098472410_2_alg».proof.Proof.Gen.ReferenceIdeal.Read

noncomputable section

open scoped BigOperators

namespace Cert.Pool.Ref

open Cert.ReferenceIdeal Cert.ReferenceIdeal.Gen Cert.ReferenceIdeal.Read Idealize.ShloMosaic Idealize.ShloMosaic.ValueIdx

/-- The pattern of negative infinity denotes the bottom element. -/
theorem ofBits_neg_inf_f32 : Ideal.ofBits .f32 0xFF800000#32 = ⊥ := by
  simp [Ideal.ofBits, Ideal.ieee]

/-- The witness that dropping the last axis of [16, 1024, 256, 64] leaves [16, 1024, 256]: it names, for a result
    index and a coordinate n, the source index with n inserted last. -/
theorem reduces_last : S16x1024x256x64.Reduces [3] S16x1024x256 := by decide

/-- That source index is (b, s, o, n). -/
theorem lift_last (b : Fin 16) (s : Fin 1024) (o : Fin 256) (n : Fin 64) :
    reduces_last.lift (ix3 b s o) n = ix4 b s o n :=
  funext fun a => Fin.ext (by
    match a with
    | ⟨0, _⟩ => rfl
    | ⟨1, _⟩ => rfl
    | ⟨2, _⟩ => rfl
    | ⟨3, _⟩ => rfl)

section
variable (x0 : (⟨S16x1024x300, .f32⟩ : BufTy).Contents (Elt Ideal)) (x1 : (⟨S64x300, .f32⟩ : BufTy).Contents (Elt Ideal))
  (x2 : (⟨S64, .f32⟩ : BufTy).Contents (Elt Ideal)) (x3 : (⟨S256x64x64, .f32⟩ : BufTy).Contents (Elt Ideal))

/-- The projected input at (b, s, k): the first contraction plus the bias broadcast along b and s. -/
theorem proj_apply (b : Fin 16) (s : Fin 1024) (k : Fin 64) :
    val_main_v3 (F := Ideal) x0 x1 x2 (ix3 b s k)
      = Cert.Pool.xc (fun b s d => x0 (ix3 b s d)) (fun k d => x1 (ix2 k d)) (fun k => x2 (ix1 k)) b s k := by
  have e0 : ∀ d : Fin 300, lidx_main_v0 (ix3 b s k) d = ix3 b s d := fun d =>
    funext fun a => Fin.ext (by match a with | ⟨0, _⟩ => rfl | ⟨1, _⟩ => rfl | ⟨2, _⟩ => rfl)
  have e1 : ∀ d : Fin 300, ridx_main_v0 (ix3 b s k) d = ix2 k d := fun d =>
    funext fun a => Fin.ext (by match a with | ⟨0, _⟩ => rfl | ⟨1, _⟩ => rfl)
  have e2 : idx_main_v1 (idx_main_v2 (ix3 b s k)) = ix1 k :=
    funext fun a => Fin.ext (by match a with | ⟨0, _⟩ => rfl)
  rw [val_main_v3_apply, val_main_v0_apply, val_main_v2_apply, val_main_v1_apply]
  simp only [e0, e1, e2]
  rfl

/-- The clipped score at (b, s, o, n). -/
theorem clipped_apply (b : Fin 16) (s : Fin 1024) (o : Fin 256) (n : Fin 64) :
    val_main_v5 (F := Ideal) x0 x1 x2 x3 (ix4 b s o n)
      = max (Cert.Pool.score (fun b s d => x0 (ix3 b s d)) (fun k d => x1 (ix2 k d)) (fun k => x2 (ix1 k))
          (fun o n k => x3 (ix3 o n k)) b s o n) 0 := by
  have e0 : ∀ k : Fin 64, lidx_main_v4 (ix4 b s o n) k = ix3 b s k := fun k =>
    funext fun a => Fin.ext (by match a with | ⟨0, _⟩ => rfl | ⟨1, _⟩ => rfl | ⟨2, _⟩ => rfl)
  have e1 : ∀ k : Fin 64, ridx_main_v4 (ix4 b s o n) k = ix3 o n k := fun k =>
    funext fun a => Fin.ext (by match a with | ⟨0, _⟩ => rfl | ⟨1, _⟩ => rfl | ⟨2, _⟩ => rfl)
  rw [val_main_v5_apply, val_main_v4_apply, val_main_call0_v0_apply, val_main_call0_cst_apply]
  simp only [e0, e1, proj_apply]
  exact congrArg (max _) Ideal.ofBits_zero_f32

/-- The fold over n at (b, s, o): the maximum of the 64 scores, clipped at 0. -/
theorem best_apply (b : Fin 16) (s : Fin 1024) (o : Fin 256) :
    val_main_v6 (F := Ideal) x0 x1 x2 x3 (ix3 b s o)
      = max (Finset.univ.sup' Finset.univ_nonempty fun n : Fin 64 =>
          Cert.Pool.score (fun b s d => x0 (ix3 b s d)) (fun k d => x1 (ix2 k d)) (fun k => x2 (ix1 k))
            (fun o n k => x3 (ix3 o n k)) b s o n) 0 := by
  unfold val_main_v6
  refine (Host.reduce_eq_fold_single FloatOps.maximumf _ _ reducesTo_S16x1024x256x64_S16x1024x256_d3 reduces_last h_S_
    (ix3 b s o)).trans ?_
  refine Eq.trans ?_ (Cert.Pool.relu_sup _)
  show Finset.fold max (Ideal.ofBits .f32 0xFF800000#32) _ (Finset.univ : Finset (Fin 64)) = _
  rw [ofBits_neg_inf_f32]
  refine Finset.fold_congr fun n _ => ?_
  show val_main_v5 (F := Ideal) x0 x1 x2 x3 (reduces_last.lift (ix3 b s o) n) = _
  rw [lift_last, clipped_apply]

/-- THE REFERENCE IS THE POOLED VALUE: the run's result term, read at (b, o). -/
theorem result_apply (b : Fin 16) (o : Fin 256) :
    val_main_v7 (F := Ideal) x0 x1 x2 x3 (ix2 b o)
      = Cert.Pool.pooled (fun b s d => x0 (ix3 b s d)) (fun k d => x1 (ix2 k d)) (fun k => x2 (ix1 k))
          (fun o n k => x3 (ix3 o n k)) b o := by
  have e : ∀ s : Fin 1024, idx_main_v7 (ix2 b o) s = ix3 b s o := fun s =>
    funext fun a => Fin.ext (by match a with | ⟨0, _⟩ => rfl | ⟨1, _⟩ => rfl | ⟨2, _⟩ => rfl)
  rw [val_main_v7_apply, val_main_cst_0_apply]
  simp only [e, best_apply]
  show Ideal.ofBits .f32 0x00000000#32 + _ = _
  rw [Ideal.ofBits_zero_f32, zero_add]
  rfl

end

end Cert.Pool.Ref

end
-- ==== Proof.lean ====
/-
  Both programs compute, for every batch entry b and output o, the sum over the 1024 set elements s of
  max (max over the 64 hidden elements n of ⟨xc b s, H o n⟩) 0, where xc b s = W · X b s + bias: the reference clips each
  match at zero before taking the maximum over n and sums over s in one reduction; the kernel takes the maximum over n as
  a chain of 63 pairwise maxima, clips once, sums 128 rows at a time and adds the eight partial sums into an
  accumulator. The two agree on the extended reals because clipping at zero commutes with a maximum over a nonempty
  family and because addition there is commutative and associative; the precondition is not used.
  The frames: each kernel launch's body is run once per case of its conditionals, the second launch's accumulator
  carried from grid point to grid point by the launch's invariant, and the program is the chain host operations,
  launch, host operations, launch. The word-level kernel's frame is the same text read at the bit-exact instance.
-/
import proofs.«111605_j15960098472410_2_alg».proof.Defs
import proofs.«111605_j15960098472410_2_alg».proof.Proof.Gen.Kernel
import proofs.«111605_j15960098472410_2_alg».proof.Proof.Gen.Kernel.Skeleton
import proofs.«111605_j15960098472410_2_alg».proof.Proof.Gen.Kernel.Loops
import proofs.«111605_j15960098472410_2_alg».proof.Proof.Gen.Kernel.Launch
import proofs.«111605_j15960098472410_2_alg».proof.Proof.Gen.Kernel.Regions
import proofs.«111605_j15960098472410_2_alg».proof.Proof.Gen.Kernel.Points
import proofs.«111605_j15960098472410_2_alg».proof.Proof.Gen.KernelIdeal
import proofs.«111605_j15960098472410_2_alg».proof.Proof.Gen.KernelIdeal.Skeleton
import proofs.«111605_j15960098472410_2_alg».proof.Proof.Gen.KernelIdeal.Loops
import proofs.«111605_j15960098472410_2_alg».proof.Proof.Gen.KernelIdeal.Launch
import proofs.«111605_j15960098472410_2_alg».proof.Proof.Gen.KernelIdeal.Regions
import proofs.«111605_j15960098472410_2_alg».proof.Proof.Gen.KernelIdeal.Points
import proofs.«111605_j15960098472410_2_alg».proof.Proof.Gen.ReferenceIdeal
import proofs.«111605_j15960098472410_2_alg».proof.Proof.Gen.ReferenceIdeal.Run
import proofs.«111605_j15960098472410_2_alg».proof.Proof.Gen.ReferenceIdeal.Read
import proofs.«111605_j15960098472410_2_alg».proof.Proof.Gen.Pre_finite_inputs
import proofs.«111605_j15960098472410_2_alg».proof.Proof.KbRun
import proofs.«111605_j15960098472410_2_alg».proof.Proof.KiRun
import proofs.«111605_j15960098472410_2_alg».proof.Proof.KiBridge
import proofs.«111605_j15960098472410_2_alg».proof.Proof.PoolRef
import Idealize.ShloMosaic.Adequacy
import Idealize.ShloMosaic.Init

noncomputable section

namespace Cert.Proof

open Idealize.ShloMosaic Idealize.ShloMosaic.ValueIdx Idealize.SL.Sem

/-- The word-level kernel runs and leaves its arguments unchanged: its run with the result dropped. -/
theorem frame_p [Cert.Kernel.Facts] [Cert.Pre_finite_inputs.Facts] : Cert.frame_Kernel := fun m ρ _ =>
  (θ_run Cert.Kernel.defs _ _).mono (fun _ h c => (h c).2) (Cert.Kernel.Frm.run (F := Bits) m ρ)

/-- The same for the idealized kernel. -/
theorem frame_pi [Cert.KernelIdeal.Facts] [Cert.Pre_finite_inputs.Facts] : Cert.frame_KernelIdeal := fun m ρ _ =>
  (θ_run Cert.KernelIdeal.defs _ _).mono (fun _ h c => (h c).2) (Cert.KernelIdeal.Frm.run (F := Ideal) m ρ)

/-- The reference runs and leaves its arguments unchanged: its run with the result dropped. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- Both runs end with the result array at the specification's result of the argument arrays. -/
theorem algebraic [Cert.KernelIdeal.Facts] [Cert.ReferenceIdeal.Facts] [Cert.Pre_finite_inputs.Facts] : Cert.algebraic_KernelIdeal_ReferenceIdeal := by
  intro m ρ m' ρ' _ hagree
  refine ⟨fun c => Cert.KernelIdeal.Val.poolArr (Cert.KernelIdeal.Val.Xof m c) (Cert.KernelIdeal.Val.Wof m c) (Cert.KernelIdeal.Val.Bof m c) (Cert.KernelIdeal.Val.Hof m c),
    (θ_run Cert.KernelIdeal.defs _ _).mono (fun _ h c => ⟨(h c).1.trans (Cert.KernelIdeal.Val.result m ρ c), (h c).2⟩) (Cert.KernelIdeal.Frm.run (F := Ideal) m ρ), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2, Cert.ReferenceIdeal.Read.val_main_v7_eq]
  funext j
  obtain ⟨b, o, rfl⟩ : ∃ (b : Fin 16) (o : Fin 256), j = ix2 b o := ⟨j 0, j 1, eq_ix2 j⟩
  exact Cert.Pool.Ref.result_apply _ _ _ _ b o

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
